-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x128 : Shape := ⟨3, ![1024, 128, 128]⟩
abbrev S1024x128x512 : Shape := ⟨3, ![1024, 128, 512]⟩
abbrev S128x512 : Shape := ⟨2, ![128, 512]⟩
abbrev S512x512 : Shape := ⟨2, ![512, 512]⟩
abbrev S512 : Shape := ⟨1, ![512]⟩
abbrev S_ : Shape := ⟨0, ![]⟩

class Facts : Prop where
  bcast_S_S1024x128x128 : S_.BroadcastsInDim S1024x128x128 (![] : Fin 0 → Fin S1024x128x128.rank)
  reducesTo_S1024x128x128_S_d0_1_2 : S1024x128x128.ReducesTo [0, 1, 2] S_
  h_S_ : 0 < S_.numel
  bcast_S_S1024x128x512 : S_.BroadcastsInDim S1024x128x512 (![] : Fin 0 → Fin S1024x128x512.rank)
  reducesTo_S1024x128x512_S_d0_1_2 : S1024x128x512.ReducesTo [0, 1, 2] S_
  bcast_S_S128x512 : S_.BroadcastsInDim S128x512 (![] : Fin 0 → Fin S128x512.rank)
  reducesTo_S128x512_S_d0_1 : S128x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512 .f32) (main_arg8 : FVec F S128x512 .f32) (main_arg9 : FVec F S512x512 .f32) (main_arg10 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S128x512 .f32 := Host.absf main_arg8
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S128x512 .f32) (main_arg6 : FVec F S512x512 .f32) (main_arg7 : FVec F S512 .f32) (main_arg8 : FVec F S128x512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x128x128 .f32) (main_arg1 : FVec F S1024x128x512 .f32) (main_arg2 : FVec F S128x512 .f32) (main_arg3 : FVec F S512x512 .f32) (main_arg4 : FVec F S512 .f32) (main_arg5 : FVec F S128x512 .f32) (main_arg6 : FVec F S512x512 .f32) (main_arg7 : FVec F S512 .f32) (main_arg8 : FVec F S128x512 .f32) (main_arg9 : FVec F S512x512 .f32) (main_arg10 : FVec F S512 .f32) : IVec S_ 1 :=
  let main_v0 : FVec F S1024x128x128 .f32 := Host.absf main_arg0
  let main_cst : FVec F S_ .f32 := constant S_ .f32 0x7F800000#32
  let main_v1 : FVec F S1024x128x128 .f32 := broadcastInDim S1024x128x128 ![] bcast_S_S1024x128x128 main_cst
  let main_v2 : IVec S1024x128x128 1 := cmpf .olt main_v0 main_v1
  let main_c : IVec S_ 1 := constantI S_ 1 1#1
  let main_v3 : IVec S_ 1 := (fun x v => Host.reduce IntOp.andi x v reducesTo_S1024x128x128_S_d0_1_2 h_S_) main_v2 main_c
  let main_v4 : FVec F S1024x128x512 .f32 := Host.absf main_arg1
  let main_cst_0 : FVec F S_ .f32 := constant S_ .f32 0x7F800000#32
  let main_v5 : FVec F S1024x128x512 .f32 := broadcastInDim S1024x128x512 ![] bcast_S_S1024x128x512 main_cst_0
  let main_v6 : IVec S1024x128x512 1 := cmpf .olt main_v4 main_v5
  let main_c_1 : IVec S_ 1 := constantI S_ 1 1#1
  let main_v7 : IVec S_ 1 := (fun x v => Host.reduce IntOp.andi x v reducesTo_S1024x128x512_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S1024x128x128 : Shape := ⟨3, ![1024, 128, 128]⟩
abbrev S1024x128x512 : Shape := ⟨3, ![1024, 128, 512]⟩
abbrev S128x512 : Shape := ⟨2, ![128, 512]⟩
abbrev S512x512 : Shape := ⟨2, ![512, 512]⟩
abbrev S512 : Shape := ⟨1, ![512]⟩
abbrev S131072x128 : Shape := ⟨2, ![131072, 128]⟩
abbrev S131072x512 : Shape := ⟨2, ![131072, 512]⟩
abbrev S128x1536 : Shape := ⟨2, ![128, 1536]⟩
abbrev S512x1024 : Shape := ⟨2, ![512, 1024]⟩
abbrev S1x512 : Shape := ⟨2, ![1, 512]⟩
abbrev S1024x128 : Shape := ⟨2, ![1024, 128]⟩
abbrev S1024x512 : Shape := ⟨2, ![1024, 512]⟩
abbrev S1024x1536 : Shape := ⟨2, ![1024, 1536]⟩
abbrev S1024x1024 : Shape := ⟨2, ![1024, 1024]⟩

abbrev nBuf : Space → Nat
  | .hbm => 23
  | .vmem => 12
  | .smem => 0
  | _ => 0

abbrev bufTy : (tb : Table) → Fin (tcTables nBuf tb) → BufTy
  | .hbm, ⟨0, _⟩ => ⟨S1024x128x128, .f32⟩
  | .hbm, ⟨1, _⟩ => ⟨S1024x128x512, .f32⟩
  | .hbm, ⟨2, _⟩ => ⟨S128x512, .f32⟩
  | .hbm, ⟨3, _⟩ => ⟨S512x512, .f32⟩
  | .hbm, ⟨4, _⟩ => ⟨S512, .f32⟩
  | .hbm, ⟨5, _⟩ => ⟨S128x512, .f32⟩
  | .hbm, ⟨6, _⟩ => ⟨S512x512, .f32⟩
  | .hbm, ⟨7, _⟩ => ⟨S512, .f32⟩
  | .hbm, ⟨8, _⟩ => ⟨S128x512, .f32⟩
  | .hbm, ⟨9, _⟩ => ⟨S512x512, .f32⟩
  | .hbm, ⟨10, _⟩ => ⟨S512, .f32⟩
  | .hbm, ⟨11, _⟩ => ⟨S131072x128, .f32⟩
  | .hbm, ⟨12, _⟩ => ⟨S131072x512, .f32⟩
  | .hbm, ⟨13, _⟩ => ⟨S128x1536, .f32⟩
  | .hbm, ⟨14, _⟩ => ⟨S128x1536, .bf16⟩
  | .hbm, ⟨15, _⟩ => ⟨S512x1024, .f32⟩
  | .hbm, ⟨16, _⟩ => ⟨S512x1024, .bf16⟩
  | .hbm, ⟨17, _⟩ => ⟨S512x512, .bf16⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S131072x512, .f32⟩
  | .hbm, ⟨22, _⟩ => ⟨S1024x128x512, .f32⟩
  | .local _ .vmem, ⟨0, _⟩ => ⟨S1024x128, .f32⟩
  | .local _ .vmem, ⟨1, _⟩ => ⟨S1024x128, .f32⟩
  | .local _ .vmem, ⟨2, _⟩ => ⟨S1024x512, .f32⟩
  | .local _ .vmem, ⟨3, _⟩ => ⟨S1024x512, .f32⟩
  | .local _ .vmem, ⟨4, _⟩ => ⟨S128x1536, .bf16⟩
  | .local _ .vmem, ⟨5, _⟩ => ⟨S512x1024, .bf16⟩
  | .local _ .vmem, ⟨6, _⟩ => ⟨S512x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S1024x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1024x128x128_S131072x128 : S1024x128x128.ShapeCasts S131072x128
  shapeCasts_S1024x128x512_S131072x512 : S1024x128x512.ShapeCasts S131072x512
  concatenates_S128x512_S128x512_S128x512_S128x1536_d1 : Shape.Concatenates [S128x512, S128x512, S128x512] S128x1536 1
  bitsLt_bf16_f32 : FTy.bits .bf16 < FTy.bits .f32
  concatenates_S512x512_S512x512_S512x1024_d1 : Shape.Concatenates [S512x512, S512x512] S512x1024 1
  shapeCasts_S512_S1x512 : S512.ShapeCasts S1x512
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x1536_S128x1536_0_0 : ∀ a, (![0, 0] : Fin 2 → Nat) a + S128x1536.size a ≤ S128x1536.size a
  h_S128x1536 : 0 < S128x1536.numel
  shapeCasts_S128x1536_S128x1536 : S128x1536.ShapeCasts S128x1536
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  slices_S1024x1024_o0_0_S1024x512 : S1024x1024.Slices ![0, 0] S1024x512
  slices_S1024x1024_o0_512_S1024x512 : S1024x1024.Slices ![0, 512] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S131072x512_S1024x128x512 : S131072x512.ShapeCasts S1024x128x512
  dot_S1024x128_S128x1536_S1024x1536_1_0_0_1_n_n_wf : DotDims.WF S1024x128 S128x1536 S1024x1536 [1] [0] [0] [1] [] []
  dot_S1024x512_S512x1024_S1024x1024_1_0_0_1_n_n_wf : DotDims.WF S1024x512 S512x1024 S1024x1024 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S131072x512.size a
  hwx0_1 : ∀ i : grid0.Coords, EltTy.bits .f32 = 32 ∨ (Rect.block (s := S131072x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1536.size a ≤ S128x1536.size a
  hwx0_2 : ∀ i : grid0.Coords, EltTy.bits .bf16 = 32 ∨ (Rect.block (s := S128x1536) S128x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S131072x512.size a
  hwx0_8 : ∀ i : grid0.Coords, EltTy.bits .f32 = 32 ∨ (Rect.block (s := S131072x512) S1024x512.size (cc0_transform_8 i) (hinb0_8 i)).WholeWords (EltTy.packing .f32)

variable [Facts₀]

def dot_S1024x128_S128x1536_S1024x1536_1_0_0_1_n_n : DotDims S1024x128 S128x1536 S1024x1536 where
  lhsContracting := [1]
  rhsContracting := [0]
  lhsNonContracting := [0]
  rhsNonContracting := [1]
  lhsBatch := []
  rhsBatch := []
  wf := dot_S1024x128_S128x1536_S1024x1536_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x128x128 : Shape := ⟨3, ![1024, 128, 128]⟩
abbrev S1024x128x512 : Shape := ⟨3, ![1024, 128, 512]⟩
abbrev S128x512 : Shape := ⟨2, ![128, 512]⟩
abbrev S512x512 : Shape := ⟨2, ![512, 512]⟩
abbrev S512 : Shape := ⟨1, ![512]⟩
abbrev S131072x128 : Shape := ⟨2, ![131072, 128]⟩
abbrev S131072x512 : Shape := ⟨2, ![131072, 512]⟩
abbrev S1x512 : Shape := ⟨2, ![1, 512]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S1024x128x128, .f32⟩
  | .hbm, ⟨1, _⟩ => ⟨S1024x128x512, .f32⟩
  | .hbm, ⟨2, _⟩ => ⟨S128x512, .f32⟩
  | .hbm, ⟨3, _⟩ => ⟨S512x512, .f32⟩
  | .hbm, ⟨4, _⟩ => ⟨S512, .f32⟩
  | .hbm, ⟨5, _⟩ => ⟨S128x512, .f32⟩
  | .hbm, ⟨6, _⟩ => ⟨S512x512, .f32⟩
  | .hbm, ⟨7, _⟩ => ⟨S512, .f32⟩
  | .hbm, ⟨8, _⟩ => ⟨S128x512, .f32⟩
  | .hbm, ⟨9, _⟩ => ⟨S512x512, .f32⟩
  | .hbm, ⟨10, _⟩ => ⟨S512, .f32⟩
  | .hbm, ⟨11, _⟩ => ⟨S131072x128, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S131072x512, .f32⟩
  | .hbm, ⟨16, _⟩ => ⟨S1x512, .f32⟩
  | .hbm, ⟨17, _⟩ => ⟨S131072x512, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S_, .f32⟩
  | .hbm, ⟨22, _⟩ => ⟨S131072x512, .f32⟩
  | .hbm, ⟨23, _⟩ => ⟨S131072x512, .f32⟩
  | .hbm, ⟨24, _⟩ => ⟨S_, .f32⟩
  | .hbm, ⟨25, _⟩ => ⟨S131072x512, .f32⟩
  | .hbm, ⟨26, _⟩ => ⟨S131072x512, .f32⟩
  | .hbm, ⟨27, _⟩ => ⟨S131072x512, .f32⟩
  | .hbm, ⟨28, _⟩ => ⟨S131072x512, .f32⟩
  | .hbm, ⟨29, _⟩ => ⟨S131072x512, .f32⟩
  | .hbm, ⟨30, _⟩ => ⟨S1x512, .f32⟩
  | .hbm, ⟨31, _⟩ => ⟨S131072x512, .f32⟩
  | .hbm, ⟨32, _⟩ => ⟨S131072x512, .f32⟩
  | .hbm, ⟨33, _⟩ => ⟨S131072x512, .f32⟩
  | .hbm, ⟨34, _⟩ => ⟨S131072x512, .f32⟩
  | .hbm, ⟨35, _⟩ => ⟨S_, .f32⟩
  | .hbm, ⟨36, _⟩ => ⟨S131072x512, .f32⟩
  | .hbm, ⟨37, _⟩ => ⟨S131072x512, .f32⟩
  | .hbm, ⟨38, _⟩ => ⟨S_, .f32⟩
  | .hbm, ⟨39, _⟩ => ⟨S131072x512, .f32⟩
  | .hbm, ⟨40, _⟩ => ⟨S131072x512, .f32⟩
  | .hbm, ⟨41, _⟩ => ⟨S131072x512, .f32⟩
  | .hbm, ⟨42, _⟩ => ⟨S131072x512, .f32⟩
  | .hbm, ⟨43, _⟩ => ⟨S131072x512, .f32⟩
  | .hbm, ⟨44, _⟩ => ⟨S131072x512, .f32⟩
  | .hbm, ⟨45, _⟩ => ⟨S1x512, .f32⟩
  | .hbm, ⟨46, _⟩ => ⟨S131072x512, .f32⟩
  | .hbm, ⟨47, _⟩ => ⟨S131072x512, .f32⟩
  | .hbm, ⟨48, _⟩ => ⟨S131072x512, .f32⟩
  | .hbm, ⟨49, _⟩ => ⟨S_, .f32⟩
  | .hbm, ⟨50, _⟩ => ⟨S131072x512, .f32⟩
  | .hbm, ⟨51, _⟩ => ⟨S131072x512, .f32⟩
  | .hbm, ⟨52, _⟩ => ⟨S131072x512, .f32⟩
  | .hbm, ⟨53, _⟩ => ⟨S131072x512, .f32⟩
  | .hbm, ⟨54, _⟩ => ⟨S131072x512, .f32⟩
  | .hbm, ⟨55, _⟩ => ⟨S1024x128x512, .f32⟩
  | _, _ => ⟨S1024x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  shapeCasts_S1024x128x128_S131072x128 : S1024x128x128.ShapeCasts S131072x128
  shapeCasts_S1024x128x512_S131072x512 : S1024x128x512.ShapeCasts S131072x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  shapeCasts_S131072x512_S1024x128x512 : S131072x512.ShapeCasts S1024x128x512
  dot_S131072x128_S128x512_S131072x512_1_0_0_1_n_n_wf : DotDims.WF S131072x128 S128x512 S131072x512 [1] [0] [0] [1] [] []
  dot_S131072x512_S512x512_S131072x512_1_0_0_1_n_n_wf : DotDims.WF S131072x512 S512x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.FrameK.lean ====
import proofs.«117107_j52450140619362_2_alg».proof.Proof.Gen.Kernel.Launch
import proofs.«117107_j52450140619362_2_alg».proof.Proof.Gen.Kernel.Skeleton
import proofs.«117107_j52450140619362_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
# The run of the gated-recurrent-unit program, at any float instance

@main is ten host operations (two row-flattening reshapes, the concatenation of the three input-weight
matrices along the columns and of the two recurrent-weight matrices, three changes of format, three
reshapes of a bias vector to a row), one region over a grid of 128 points, and the reshape of the
region's result back to three axes.

At grid point `t` the body reads rows `1024·t … 1024·t + 1023` of the flattened input and state, the
whole of each weight matrix and bias row, and stores ONE whole block: the new state of those rows. The
block's contents are a pure function `newState` of the eight blocks read. Hence: every execution ends,
faults nowhere, leaves the eleven argument arrays as they were (no window is staged from an argument
array itself, and no host operation writes one), and ends with the result array holding, block by
block, `newState` of the blocks read.
-/

set_option maxRecDepth 16384

noncomputable section

namespace Cert.Kernel.HFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the region is entered: the launch memory after the ten host
    operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its host prefix, the region, and the final reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The final reshape touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, whether the point fetches it (the
    two row windows: every point) or not (the weights and biases: the first point only, their block
    index never moving). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run that ends with every buffer outside the windows' arrays as the final reshape leaves it ends with
    the eleven argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

/-! ## The body -/

abbrev rX : Rect S1024x128 := Rect.unit (s := S1024x128) ![0, 0] S1024x128.size inb_S1024x128_S1024x128_0_0
abbrev rH : Rect S1024x512 := Rect.unit (s := S1024x512) ![0, 0] S1024x512.size inb_S1024x512_S1024x512_0_0
abbrev rW : Rect S128x1536 := Rect.unit (s := S128x1536) ![0, 0] S128x1536.size inb_S128x1536_S128x1536_0_0
abbrev rU : Rect S512x1024 := Rect.unit (s := S512x1024) ![0, 0] S512x1024.size inb_S512x1024_S512x1024_0_0
abbrev rUh : Rect S512x512 := Rect.unit (s := S512x512) ![0, 0] S512x512.size inb_S512x512_S512x512_0_0
abbrev rB : Rect S1x512 := Rect.unit (s := S1x512) ![0, 0] S1x512.size inb_S1x512_S1x512_0_0

/-- The new state of a block of 1024 rows, from the eight blocks the body reads: `h + z · (h̃ − h)` with the
    update gate `z` and the candidate `h̃` the body's own terms of those blocks. -/
def newState (x0 : Vec F S1024x128 .f32) (x1 : Vec F S1024x512 .f32) (x2 : Vec F S128x1536 .bf16) (x3 : Vec F S512x1024 .bf16) (x4 : Vec F S512x512 .bf16) (x5 : Vec F S1x512 .f32) (x6 : Vec F S1x512 .f32) (x7 : Vec F S1x512 .f32) : FVec F S1024x512 .f32 :=
  k0_pay1 (k0_pay2 (View.ld x1 rH))
    (k0_pay5 (View.ld x0 rX) (View.ld x1 rH) (View.ld x2 rW) (View.ld x3 rU) (View.ld x5 rB))
    (k0_pay6 (View.ld x0 rX) (View.ld x1 rH) (View.ld x2 rW) (View.ld x3 rU) (View.ld x6 rB) (View.ld x4 rUh) (View.ld x7 rB))

/-- What the output window's staging buffer holds after the body: its one store, of the whole block. -/
def out0_8 (x0 : Vec F S1024x128 .f32) (x1 : Vec F S1024x512 .f32) (x2 : Vec F S128x1536 .bf16) (x3 : Vec F S512x1024 .bf16) (x4 : Vec F S512x512 .bf16) (x5 : Vec F S1x512 .f32) (x6 : Vec F S1x512 .f32) (x7 : Vec F S1x512 .f32) : Vec F S1024x512 .f32 :=
  View.canon [⟨rH, newState x0 x1 x2 x3 x4 x5 x6 x7⟩]

/-- The one store covers the buffer. -/
theorem cover0_8 (p0 : Vec F S1024x512 .f32) (y : S1024x512.Idx) :
    ∃ pc ∈ ([⟨rH, p0⟩] : List (View.Piece (Elt F) S1024x512 .f32)), y ∈ pc.1.set :=
  View.cover_of_tiled [⟨rH, p0⟩] S1024x512.size (by rfl) y

set_option maxHeartbeats 1000000 in
/-- The body on whole staging buffers, the eight inputs' holding `x0 … x7` and the output's anything, returns with
    the inputs' unchanged and the output's at `out0_8` of them. -/
theorem sound_kernel (c : Dev nD) (E : Set ℕ) (i : grid0.Coords) (arg1 : Memref sig .tc .vmem S1024x128 .f32) (harg1 : arg1.IsWhole) (arg2 : Memref sig .tc .vmem S1024x512 .f32) (harg2 : arg2.IsWhole) (arg3 : Memref sig .tc .vmem S128x1536 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x512 .f32) (harg9 : arg9.IsWhole)
    (x0 : Vec F S1024x128 .f32) (x1 : Vec F S1024x512 .f32) (x2 : Vec F S128x1536 .bf16) (x3 : Vec F S512x1024 .bf16) (x4 : Vec F S512x512 .bf16) (x5 : Vec F S1x512 .f32) (x6 : Vec F S1x512 .f32) (x7 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- On core `c`: the arrays as the region finds them; after the body at point `t` each input's buffer at its
    block and the output's at `out0_8` of the input blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every window's array holds what the
    blocks written back make of it, and every other unscoped buffer what the final reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.Kernel.HFrame

end
-- ==== Proof.FrameKI.lean ====
import proofs.«117107_j52450140619362_2_alg».proof.Proof.Gen.KernelIdeal.Launch
import proofs.«117107_j52450140619362_2_alg».proof.Proof.Gen.KernelIdeal.Skeleton
import proofs.«117107_j52450140619362_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
# The run of the gated-recurrent-unit program, at any float instance

@main is ten host operations (two row-flattening reshapes, the concatenation of the three input-weight
matrices along the columns and of the two recurrent-weight matrices, three changes of format, three
reshapes of a bias vector to a row), one region over a grid of 128 points, and the reshape of the
region's result back to three axes.

At grid point `t` the body reads rows `1024·t … 1024·t + 1023` of the flattened input and state, the
whole of each weight matrix and bias row, and stores ONE whole block: the new state of those rows. The
block's contents are a pure function `newState` of the eight blocks read. Hence: every execution ends,
faults nowhere, leaves the eleven argument arrays as they were (no window is staged from an argument
array itself, and no host operation writes one), and ends with the result array holding, block by
block, `newState` of the blocks read.
-/

set_option maxRecDepth 16384

noncomputable section

namespace Cert.KernelIdeal.HFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents on core `c` when the region is entered: the launch memory after the ten host
    operations before it. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its host prefix, the region, and the final reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The final reshape touches unscoped buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and writes its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the reshape after the region: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, whether the point fetches it (the
    two row windows: every point) or not (the weights and biases: the first point only, their block
    index never moving). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run that ends with every buffer outside the windows' arrays as the final reshape leaves it ends with
    the eleven argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c)⟩) h

/-! ## The body -/

abbrev rX : Rect S1024x128 := Rect.unit (s := S1024x128) ![0, 0] S1024x128.size inb_S1024x128_S1024x128_0_0
abbrev rH : Rect S1024x512 := Rect.unit (s := S1024x512) ![0, 0] S1024x512.size inb_S1024x512_S1024x512_0_0
abbrev rW : Rect S128x1536 := Rect.unit (s := S128x1536) ![0, 0] S128x1536.size inb_S128x1536_S128x1536_0_0
abbrev rU : Rect S512x1024 := Rect.unit (s := S512x1024) ![0, 0] S512x1024.size inb_S512x1024_S512x1024_0_0
abbrev rUh : Rect S512x512 := Rect.unit (s := S512x512) ![0, 0] S512x512.size inb_S512x512_S512x512_0_0
abbrev rB : Rect S1x512 := Rect.unit (s := S1x512) ![0, 0] S1x512.size inb_S1x512_S1x512_0_0

/-- The new state of a block of 1024 rows, from the eight blocks the body reads: `h + z · (h̃ − h)` with the
    update gate `z` and the candidate `h̃` the body's own terms of those blocks. -/
def newState (x0 : Vec F S1024x128 .f32) (x1 : Vec F S1024x512 .f32) (x2 : Vec F S128x1536 .bf16) (x3 : Vec F S512x1024 .bf16) (x4 : Vec F S512x512 .bf16) (x5 : Vec F S1x512 .f32) (x6 : Vec F S1x512 .f32) (x7 : Vec F S1x512 .f32) : FVec F S1024x512 .f32 :=
  k0_pay1 (k0_pay2 (View.ld x1 rH))
    (k0_pay5 (View.ld x0 rX) (View.ld x1 rH) (View.ld x2 rW) (View.ld x3 rU) (View.ld x5 rB))
    (k0_pay6 (View.ld x0 rX) (View.ld x1 rH) (View.ld x2 rW) (View.ld x3 rU) (View.ld x6 rB) (View.ld x4 rUh) (View.ld x7 rB))

/-- What the output window's staging buffer holds after the body: its one store, of the whole block. -/
def out0_8 (x0 : Vec F S1024x128 .f32) (x1 : Vec F S1024x512 .f32) (x2 : Vec F S128x1536 .bf16) (x3 : Vec F S512x1024 .bf16) (x4 : Vec F S512x512 .bf16) (x5 : Vec F S1x512 .f32) (x6 : Vec F S1x512 .f32) (x7 : Vec F S1x512 .f32) : Vec F S1024x512 .f32 :=
  View.canon [⟨rH, newState x0 x1 x2 x3 x4 x5 x6 x7⟩]

/-- The one store covers the buffer. -/
theorem cover0_8 (p0 : Vec F S1024x512 .f32) (y : S1024x512.Idx) :
    ∃ pc ∈ ([⟨rH, p0⟩] : List (View.Piece (Elt F) S1024x512 .f32)), y ∈ pc.1.set :=
  View.cover_of_tiled [⟨rH, p0⟩] S1024x512.size (by rfl) y

set_option maxHeartbeats 1000000 in
/-- The body on whole staging buffers, the eight inputs' holding `x0 … x7` and the output's anything, returns with
    the inputs' unchanged and the output's at `out0_8` of them. -/
theorem sound_kernel (c : Dev nD) (E : Set ℕ) (i : grid0.Coords) (arg1 : Memref sig .tc .vmem S1024x128 .f32) (harg1 : arg1.IsWhole) (arg2 : Memref sig .tc .vmem S1024x512 .f32) (harg2 : arg2.IsWhole) (arg3 : Memref sig .tc .vmem S128x1536 .bf16) (harg3 : arg3.IsWhole) (arg4 : Memref sig .tc .vmem S512x1024 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x512 .f32) (harg9 : arg9.IsWhole)
    (x0 : Vec F S1024x128 .f32) (x1 : Vec F S1024x512 .f32) (x2 : Vec F S128x1536 .bf16) (x3 : Vec F S512x1024 .bf16) (x4 : Vec F S512x512 .bf16) (x5 : Vec F S1x512 .f32) (x6 : Vec F S1x512 .f32) (x7 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- On core `c`: the arrays as the region finds them; after the body at point `t` each input's buffer at its
    block and the output's at `out0_8` of the input blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; at the end every window's array holds what the
    blocks written back make of it, and every other unscoped buffer what the final reshape leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (run_main m ρ)

end Cert.KernelIdeal.HFrame

end
-- ==== Proof.Spec.lean ====
import Idealize.ShloMosaic.PureOps.Ideal
import Idealize.ShloMosaic.Lib.ValueIdx

/-!
# One step of a gated recurrent unit, on the extended reals

For one row: `x` (128 attributes) and the state `h` (512 hidden units), three input-weight matrices
`wz wr wh` (128 × 512), three recurrent-weight matrices `uz ur uh` (512 × 512), three biases.

* update gate     `z = σ(x·wz + h·uz + bz)`
* reset gate      `r = σ(x·wr + h·ur + br)`
* candidate       `h̃ = tanh(x·wh + (r ⊙ h)·uh + bh)`
* new state       `h + z ⊙ (h̃ − h)`, which is `(1 − z) ⊙ h + z ⊙ h̃` when `h` is a real number.

`σ` and `tanh` take every extended real to a real number, so the last equation needs only `h` real: it is
then an identity of real numbers.
-/

noncomputable section

open scoped BigOperators

namespace Cert.Gru

open Idealize.ShloMosaic Idealize.ShloMosaic.ValueIdx

/-- `x·w + g·u + b` at hidden unit `j`: a gate's argument. -/
def pre (x : Fin 128 → EReal) (w : Fin 128 → Fin 512 → EReal) (g : Fin 512 → EReal) (u : Fin 512 → Fin 512 → EReal)
    (b : Fin 512 → EReal) (j : Fin 512) : EReal :=
  (∑ k : Fin 128, x k * w k j) + (∑ k : Fin 512, g k * u k j) + b j

/-- The update gate at hidden unit `j`. -/
def zGate (x : Fin 128 → EReal) (h : Fin 512 → EReal) (wz : Fin 128 → Fin 512 → EReal) (uz : Fin 512 → Fin 512 → EReal)
    (bz : Fin 512 → EReal) (j : Fin 512) : EReal :=
  Ideal.logistic (pre x wz h uz bz j)

/-- The candidate state at hidden unit `j`; the reset gate is the same function as the update gate, of its own weights. -/
def cand (x : Fin 128 → EReal) (h : Fin 512 → EReal) (wr : Fin 128 → Fin 512 → EReal) (ur : Fin 512 → Fin 512 → EReal)
    (br : Fin 512 → EReal) (wh : Fin 128 → Fin 512 → EReal) (uh : Fin 512 → Fin 512 → EReal) (bh : Fin 512 → EReal)
    (j : Fin 512) : EReal :=
  Ideal.tanh (pre x wh (fun k => zGate x h wr ur br k * h k) uh bh j)

/-- The new state in the form `h + z (h̃ − h)`. -/
def stepK (h z c : EReal) : EReal := h + z * (c - h)

/-- The new state in the form `(1 − z) h + z h̃`. -/
def stepR (h z c : EReal) : EReal := (1 - z) * h + z * c

theorem logistic_real (a : EReal) : ∃ r : ℝ, Ideal.logistic a = (r : EReal) := by
  induction a using EReal.rec with
  | bot => exact ⟨0, by rw [Ideal.logistic_bot]; rfl⟩
  | top => exact ⟨1, by rw [Ideal.logistic_top]; rfl⟩
  | coe r => exact ⟨_, Ideal.logistic_coe r⟩

theorem tanh_real (a : EReal) : ∃ r : ℝ, Ideal.tanh a = (r : EReal) := by
  induction a using EReal.rec with
  | bot => exact ⟨-1, by rw [Ideal.tanh_bot]; rfl⟩
  | top => exact ⟨1, by rw [Ideal.tanh_top]; rfl⟩
  | coe r => exact ⟨_, Ideal.tanh_coe r⟩

/-- With `h`, `z`, `h̃` real numbers the two forms of the new state agree. -/
theorem stepK_eq_stepR_coe (h z c : ℝ) : stepK (h : EReal) (z : EReal) (c : EReal) = stepR (h : EReal) (z : EReal) (c : EReal) := by
  unfold stepK stepR
  rw [← EReal.coe_sub, ← EReal.coe_mul, ← EReal.coe_add, ← EReal.coe_one, ← EReal.coe_sub, ← EReal.coe_mul,
    ← EReal.coe_mul, ← EReal.coe_add]
  congr 1
  ring

/-- The two forms agree when the state is a real number and `z`, `h̃` are values of `σ` and `tanh`. -/
theorem stepK_eq_stepR {h : EReal} (hh : ∃ r : ℝ, h = (r : EReal)) (a b : EReal) :
    stepK h (Ideal.logistic a) (Ideal.tanh b) = stepR h (Ideal.logistic a) (Ideal.tanh b) := by
  obtain ⟨r, rfl⟩ := hh
  obtain ⟨z, hz⟩ := logistic_real a
  obtain ⟨c, hc⟩ := tanh_real b
  rw [hz, hc]
  exact stepK_eq_stepR_coe r z c

/-! ## The whole arrays -/

abbrev SX : Shape := ⟨2, ![131072, 128]⟩
abbrev SH : Shape := ⟨2, ![131072, 512]⟩
abbrev SW : Shape := ⟨2, ![128, 512]⟩
abbrev SU : Shape := ⟨2, ![512, 512]⟩
abbrev SB : Shape := ⟨1, ![512]⟩

/-- Entry `(r, j)` of the new state of all 131072 rows, from the row-flattened input `X` and state `H`. -/
def rowsAt (X : SX.Idx → EReal) (H : SH.Idx → EReal) (wz : SW.Idx → EReal) (uz : SU.Idx → EReal) (bz : SB.Idx → EReal)
    (wr : SW.Idx → EReal) (ur : SU.Idx → EReal) (br : SB.Idx → EReal) (wh : SW.Idx → EReal) (uh : SU.Idx → EReal)
    (bh : SB.Idx → EReal) (r : Fin 131072) (j : Fin 512) : EReal :=
  stepK (H (ix2 r j))
    (zGate (fun k => X (ix2 r k)) (fun k => H (ix2 r k)) (fun k j => wz (ix2 k j)) (fun k j => uz (ix2 k j)) (fun j => bz (ix1 j)) j)
    (cand (fun k => X (ix2 r k)) (fun k => H (ix2 r k)) (fun k j => wr (ix2 k j)) (fun k j => ur (ix2 k j)) (fun j => br (ix1 j))
      (fun k j => wh (ix2 k j)) (fun k j => uh (ix2 k j)) (fun j => bh (ix1 j)) j)

/-- The new state of all rows as one array. -/
def rows (X : SX.Idx → EReal) (H : SH.Idx → EReal) (wz : SW.Idx → EReal) (uz : SU.Idx → EReal) (bz : SB.Idx → EReal)
    (wr : SW.Idx → EReal) (ur : SU.Idx → EReal) (br : SB.Idx → EReal) (wh : SW.Idx → EReal) (uh : SU.Idx → EReal)
    (bh : SB.Idx → EReal) : SH.Idx → EReal :=
  fun i => rowsAt X H wz uz bz wr ur br wh uh bh (i 0) (i 1)

theorem rows_ix2 (X : SX.Idx → EReal) (H : SH.Idx → EReal) (wz : SW.Idx → EReal) (uz : SU.Idx → EReal) (bz : SB.Idx → EReal)
    (wr : SW.Idx → EReal) (ur : SU.Idx → EReal) (br : SB.Idx → EReal) (wh : SW.Idx → EReal) (uh : SU.Idx → EReal)
    (bh : SB.Idx → EReal) (r : Fin 131072) (j : Fin 512) :
    rows X H wz uz bz wr ur br wh uh bh (ix2 r j) = rowsAt X H wz uz bz wr ur br wh uh bh r j := rfl

/-- The same entry in the form `(1 − z) h + z h̃`, when the state's entry is a real number. -/
theorem rowsAt_eq_stepR (X : SX.Idx → EReal) (H : SH.Idx → EReal) (wz : SW.Idx → EReal) (uz : SU.Idx → EReal) (bz : SB.Idx → EReal)
    (wr : SW.Idx → EReal) (ur : SU.Idx → EReal) (br : SB.Idx → EReal) (wh : SW.Idx → EReal) (uh : SU.Idx → EReal)
    (bh : SB.Idx → EReal) (r : Fin 131072) (j : Fin 512) (hH : ∃ q : ℝ, H (ix2 r j) = (q : EReal)) :
    rowsAt X H wz uz bz wr ur br wh uh bh r j
      = stepR (H (ix2 r j))
          (zGate (fun k => X (ix2 r k)) (fun k => H (ix2 r k)) (fun k j => wz (ix2 k j)) (fun k j => uz (ix2 k j)) (fun j => bz (ix1 j)) j)
          (cand (fun k => X (ix2 r k)) (fun k => H (ix2 r k)) (fun k j => wr (ix2 k j)) (fun k j => ur (ix2 k j)) (fun j => br (ix1 j))
            (fun k j => wh (ix2 k j)) (fun k j => uh (ix2 k j)) (fun j => bh (ix1 j)) j) := by
  unfold rowsAt zGate cand
  exact stepK_eq_stepR hH _ _

end Cert.Gru

end
-- ==== Proof.LibPlainProduct.lean ====
/-
  A plain matrix product read at an entry, at the ideal values.

  For dimension numbers that contract the left operand's axis 1 with the right operand's axis 0, with no batch axis
  (an M × K matrix times a K × N matrix), whatever the evidence of their well-formedness: the contraction's sum at
  entry (a, b) is the sum over c < K of A(a, c) · B(c, b) (`sum_plain`); hence a matrix-unit product accumulated into
  the zero splat (`matmul_zero_plain_apply`) and the host's `dot_general` (`dotGeneral_plain_apply`) both read, at
  entry (a, b), as that sum. Any extents M, K, N.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : Nat}

/-- The dimension numbers of a plain M × K by K × N product over any evidence `w` of their well-formedness. -/
abbrev plainDims (w : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], w⟩

/-- The contraction's sum at entry (a, b): over the one contracted coordinate c, of A(a, c) · B(c, b). -/
theorem sum_plain (w : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (a : Fin M) (b : Fin N) :
    ∑ k : (plainDims w).contr.Idx, A ((plainDims w).lhsIdx (ix2 a b) k) * B ((plainDims w).rhsIdx (ix2 a b) k)
      = ∑ c : Fin K, A (ix2 a c) * B (ix2 c b) := by
  rw [← Equiv.sum_comp (contrEquiv1 (plainDims w) K rfl rfl).symm]
  refine Finset.sum_congr rfl fun c _ => ?_
  have c2 := contrEquiv1_symm_val (plainDims w) K rfl rfl c
  have l2 : (plainDims w).lhsIdx (ix2 a b) ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A matrix-unit product accumulated into the zero splat, read at entry (a, b). -/
theorem matmul_zero_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    FloatOps.matmul (plainDims w) prec A B (constant ⟨2, ![M, N]⟩ .f32 0x00000000#32) (ix2 a b)
      = ∑ c : Fin K, A (ix2 a c) * B (ix2 c b) := by
  rw [Ideal.matmul_constant_zero_apply]
  exact sum_plain w A B a b

/-- The host's `dot_general` with those dimension numbers, read at entry (a, b). -/
theorem dotGeneral_plain_apply {φ₁ φ₂ : FTy}
    (w : DotDims.WF ⟨2, ![M, K]⟩ ⟨2, ![K, N]⟩ ⟨2, ![M, N]⟩ [1] [0] [0] [1] [] []) (prec : Option ContractPrecision)
    (A : FVec Ideal ⟨2, ![M, K]⟩ φ₁) (B : FVec Ideal ⟨2, ![K, N]⟩ φ₂) (a : Fin M) (b : Fin N) :
    Host.dotGeneral (plainDims w) prec A B (ix2 a b) = ∑ c : Fin K, A (ix2 a c) * B (ix2 c b) := by
  show FloatOps.dotGeneral _ prec _ A B (ix2 a b) = _
  rw [Ideal.dotGeneral_apply]
  exact sum_plain w A B a b

end Cert.LibPlainProduct

end
-- ==== Proof.KernelRow.lean ====
import proofs.«117107_j52450140619362_2_alg».proof.Proof.Gen.KernelIdeal.Skeleton
import proofs.«117107_j52450140619362_2_alg».proof.Proof.Spec
import proofs.«117107_j52450140619362_2_alg».proof.Proof.LibPlainProduct
import Idealize.ShloMosaic.Lib.Pipeline.Value
import Idealize.ShloMosaic.Lib.ValueIdx
import Idealize.ShloMosaic.Lib.ValueLayout
import Idealize.ShloMosaic.PureOps.Ideal.Laws

/-!
# The kernel body's arithmetic at one entry

The body works on a block of 1024 rows. From the block `x` of the input (1024 × 128), the block `h` of the state
(1024 × 512), the three input-weight matrices side by side `Wc` (128 × 1536), the update and reset recurrent weights
side by side `Uc` (512 × 1024), the candidate's recurrent weights `Uh` and three bias rows, it forms the two products
`x·Wc` and `h·Uc` once and cuts the gates' arguments out of them by columns: columns `j`, `512 + j`, `1024 + j` of
`x·Wc` and `j`, `512 + j` of `h·Uc`. Entry `(p, j)` of what it stores is therefore the recurrent unit's new state
for row `p` of the block, with the weight matrices read at those shifted columns.
-/

noncomputable section

open scoped BigOperators

namespace Cert.KernelIdeal.KValue

open Cert.KernelIdeal Cert.KernelIdeal.Gen
open Idealize.ShloMosaic Idealize.ShloMosaic.ValueIdx Cert.LibPlainProduct

/-- Column `o + j` of a matrix with `n` columns, for `j` below 512 and `o + 512 ≤ n`. -/
abbrev col (n o : Nat) (h : o + 512 ≤ n) (j : Fin 512) : Fin n := ⟨o + j.val, by have := j.isLt; omega⟩

/-- `x·Wc` at row `p`, column `c`. -/
theorem xW_apply (v0 : Vec Ideal S1024x128 .f32) (v6 : Vec Ideal S128x1536 .bf16) (p : Fin 1024) (c : Fin 1536) :
    k0_pay3 v0 v6 (ix2 p c) = ∑ k : Fin 128, v0 (ix2 p k) * v6 (ix2 k c) := by
  unfold k0_pay3
  rw [shapeCast_self, shapeCast_self]
  exact matmul_zero_plain_apply dot_S1024x128_S128x1536_S1024x1536_1_0_0_1_n_n_wf none _ _ p c

/-- `h·Uc` at row `p`, column `c`. -/
theorem hU_apply (v2 : Vec Ideal S1024x512 .f32) (v9 : Vec Ideal S512x1024 .bf16) (p : Fin 1024) (c : Fin 1024) :
    k0_pay4 v2 v9 (ix2 p c) = ∑ k : Fin 512, v2 (ix2 p k) * v9 (ix2 k c) := by
  unfold k0_pay4 k0_pay2
  rw [shapeCast_self, shapeCast_self]
  exact matmul_zero_plain_apply dot_S1024x512_S512x1024_S1024x1024_1_0_0_1_n_n_wf none _ _ p c

/-- A gate cut out of the two products at column offsets `o` (of `x·Wc`) and `o'` (of `h·Uc`), with bias row `b`:
    the recurrent unit's gate of row `p` with the weights read at the shifted columns. -/
theorem gate_apply (o o' : Nat) (ho : o + 512 ≤ 1536) (ho' : o' + 512 ≤ 1024)
    (v0 : Vec Ideal S1024x128 .f32) (v2 : Vec Ideal S1024x512 .f32) (v6 : Vec Ideal S128x1536 .bf16)
    (v9 : Vec Ideal S512x1024 .bf16) (b : Vec Ideal S1x512 .f32)
    (h1 : S1024x1536.Slices ![0, o] S1024x512) (h2 : S1024x1024.Slices ![0, o'] S1024x512)
    (h3 : S1x512.ShapeCasts S1x512) (h4 : S1x512.Broadcasts S1024x512) (p : Fin 1024) (j : Fin 512) :
    logistic (F := Ideal) (addf (addf (extractStridedSlice S1024x512 ![0, o] (k0_pay3 v0 v6) h1)
        (extractStridedSlice S1024x512 ![0, o'] (k0_pay4 v2 v9) h2))
        (broadcastTo S1024x512 (shapeCast S1x512 b h3) h4)) (ix2 p j)
      = Cert.Gru.zGate (fun k => v0 (ix2 p k)) (fun k => v2 (ix2 p k)) (fun k j => v6 (ix2 k (col 1536 o ho j)))
          (fun k j => v9 (ix2 k (col 1024 o' ho' j))) (fun j => b (ix2 (0 : Fin 1) j)) j := by
  show Ideal.logistic ((extractStridedSlice S1024x512 ![0, o] (k0_pay3 v0 v6) h1 (ix2 p j)
      + extractStridedSlice S1024x512 ![0, o'] (k0_pay4 v2 v9) h2 (ix2 p j))
      + broadcastTo S1024x512 (shapeCast S1x512 b h3) h4 (ix2 p j)) = _
  rw [slice2_axis1_apply o _ h1 p j (col 1536 o ho j) rfl, slice2_axis1_apply o' _ h2 p j (col 1024 o' ho' j) rfl,
    broadcastTo_1b_ab_apply, shapeCast_self, xW_apply, hU_apply]
  rfl

/-- The update gate as the body computes it. -/
theorem zGate_apply (v0 : Vec Ideal S1024x128 .f32) (v2 : Vec Ideal S1024x512 .f32) (v6 : Vec Ideal S128x1536 .bf16)
    (v9 : Vec Ideal S512x1024 .bf16) (v18 : Vec Ideal S1x512 .f32) (p : Fin 1024) (j : Fin 512) :
    k0_pay5 v0 v2 v6 v9 v18 (ix2 p j)
      = Cert.Gru.zGate (fun k => v0 (ix2 p k)) (fun k => v2 (ix2 p k)) (fun k j => v6 (ix2 k (col 1536 0 (by norm_num) j)))
          (fun k j => v9 (ix2 k (col 1024 0 (by norm_num) j))) (fun j => v18 (ix2 (0 : Fin 1) j)) j := by
  unfold k0_pay5
  exact gate_apply 0 0 (by norm_num) (by norm_num) v0 v2 v6 v9 v18 _ _ _ _ p j

/-- The state's block as the body holds it. -/
theorem state_apply (v2 : Vec Ideal S1024x512 .f32) (i : S1024x512.Idx) : k0_pay2 v2 i = v2 i := by
  unfold k0_pay2
  rw [shapeCast_self]

/-- The candidate state as the body computes it: the reset gate from columns `512 + j` of the two products, the
    input's share from columns `1024 + j` of `x·Wc`, and the product of the gated state with `Uh`. -/
theorem cand_apply (v0 : Vec Ideal S1024x128 .f32) (v2 : Vec Ideal S1024x512 .f32) (v6 : Vec Ideal S128x1536 .bf16)
    (v9 : Vec Ideal S512x1024 .bf16) (v24 : Vec Ideal S1x512 .f32) (v31 : Vec Ideal S512x512 .bf16)
    (v35 : Vec Ideal S1x512 .f32) (p : Fin 1024) (j : Fin 512) :
    k0_pay6 v0 v2 v6 v9 v24 v31 v35 (ix2 p j)
      = Cert.Gru.cand (fun k => v0 (ix2 p k)) (fun k => v2 (ix2 p k)) (fun k j => v6 (ix2 k (col 1536 512 (by norm_num) j)))
          (fun k j => v9 (ix2 k (col 1024 512 (by norm_num) j))) (fun j => v24 (ix2 (0 : Fin 1) j))
          (fun k j => v6 (ix2 k (col 1536 1024 (by norm_num) j))) (fun k j => v31 (ix2 k j)) (fun j => v35 (ix2 (0 : Fin 1) j)) j := by
  unfold k0_pay6 Cert.Gru.cand Cert.Gru.pre
  refine congrArg Ideal.tanh (congrArg₂ (· + ·) (congrArg₂ (· + ·) ?_ ?_) ?_)
  · exact (slice2_axis1_apply 1024 _ _ p j (col 1536 1024 (by norm_num) j) rfl).trans (xW_apply v0 v6 p _)
  · refine (matmul_zero_plain_apply dot_S1024x512_S512x512_S1024x512_1_0_0_1_n_n_wf none _ _ p j).trans ?_
    refine Finset.sum_congr rfl fun k _ => ?_
    refine congrArg₂ (· * ·) ?_ (congrFun (shapeCast_self v31 _) (ix2 k j))
    exact congrArg₂ (· * ·) (gate_apply 512 512 (by norm_num) (by norm_num) v0 v2 v6 v9 v24 _ _ _ _ p k) (state_apply v2 _)
  · rw [broadcastTo_1b_ab_apply, shapeCast_self]

/-- What the body stores, as one function of the eight blocks it reads. -/
def blockOut (v0 : Vec Ideal S1024x128 .f32) (v2 : Vec Ideal S1024x512 .f32) (v6 : Vec Ideal S128x1536 .bf16)
    (v9 : Vec Ideal S512x1024 .bf16) (v18 v24 : Vec Ideal S1x512 .f32) (v31 : Vec Ideal S512x512 .bf16)
    (v35 : Vec Ideal S1x512 .f32) : FVec Ideal S1024x512 .f32 :=
  k0_pay1 (k0_pay2 v2) (k0_pay5 v0 v2 v6 v9 v18) (k0_pay6 v0 v2 v6 v9 v24 v31 v35)

/-- Entry `(p, j)` of what the body stores is the new state `h + z (h̃ − h)` of row `p` of the block. -/
theorem blockOut_apply (v0 : Vec Ideal S1024x128 .f32) (v2 : Vec Ideal S1024x512 .f32) (v6 : Vec Ideal S128x1536 .bf16)
    (v9 : Vec Ideal S512x1024 .bf16) (v18 v24 : Vec Ideal S1x512 .f32) (v31 : Vec Ideal S512x512 .bf16)
    (v35 : Vec Ideal S1x512 .f32) (p : Fin 1024) (j : Fin 512) :
    blockOut v0 v2 v6 v9 v18 v24 v31 v35 (ix2 p j)
      = Cert.Gru.stepK (v2 (ix2 p j))
          (Cert.Gru.zGate (fun k => v0 (ix2 p k)) (fun k => v2 (ix2 p k)) (fun k j => v6 (ix2 k (col 1536 0 (by norm_num) j)))
            (fun k j => v9 (ix2 k (col 1024 0 (by norm_num) j))) (fun j => v18 (ix2 (0 : Fin 1) j)) j)
          (Cert.Gru.cand (fun k => v0 (ix2 p k)) (fun k => v2 (ix2 p k)) (fun k j => v6 (ix2 k (col 1536 512 (by norm_num) j)))
            (fun k j => v9 (ix2 k (col 1024 512 (by norm_num) j))) (fun j => v24 (ix2 (0 : Fin 1) j))
            (fun k j => v6 (ix2 k (col 1536 1024 (by norm_num) j))) (fun k j => v31 (ix2 k j)) (fun j => v35 (ix2 (0 : Fin 1) j)) j) := by
  unfold blockOut k0_pay1 Cert.Gru.stepK
  show k0_pay2 v2 (ix2 p j) + k0_pay5 v0 v2 v6 v9 v18 (ix2 p j) * (k0_pay6 v0 v2 v6 v9 v24 v31 v35 (ix2 p j) - k0_pay2 v2 (ix2 p j)) = _
  rw [state_apply, zGate_apply, cand_apply]

/-- If the eight blocks are what the whole arrays hold for row `R` — the two row blocks row `p` of them, the weight
    blocks the three (two) matrices side by side, the bias blocks the bias vectors as rows — then entry `(p, j)` of what
    the body stores is entry `(R, j)` of the new state of all rows. -/
theorem blockOut_eq_rowsAt (X : Cert.Gru.SX.Idx → EReal) (H : Cert.Gru.SH.Idx → EReal)
    (wz : Cert.Gru.SW.Idx → EReal) (uz : Cert.Gru.SU.Idx → EReal) (bz : Cert.Gru.SB.Idx → EReal)
    (wr : Cert.Gru.SW.Idx → EReal) (ur : Cert.Gru.SU.Idx → EReal) (br : Cert.Gru.SB.Idx → EReal)
    (wh : Cert.Gru.SW.Idx → EReal) (uh : Cert.Gru.SU.Idx → EReal) (bh : Cert.Gru.SB.Idx → EReal)
    (v0 : Vec Ideal S1024x128 .f32) (v2 : Vec Ideal S1024x512 .f32) (v6 : Vec Ideal S128x1536 .bf16)
    (v9 : Vec Ideal S512x1024 .bf16) (v18 v24 : Vec Ideal S1x512 .f32) (v31 : Vec Ideal S512x512 .bf16)
    (v35 : Vec Ideal S1x512 .f32) (y : S1024x512.Idx) (R : Fin 131072)
    (e0 : ∀ k : Fin 128, v0 (ix2 (y 0) k) = X (ix2 R k)) (e1 : ∀ k : Fin 512, v2 (ix2 (y 0) k) = H (ix2 R k))
    (ewz : ∀ (k : Fin 128) (j : Fin 512), v6 (ix2 k (col 1536 0 (by norm_num) j)) = wz (ix2 k j))
    (ewr : ∀ (k : Fin 128) (j : Fin 512), v6 (ix2 k (col 1536 512 (by norm_num) j)) = wr (ix2 k j))
    (ewh : ∀ (k : Fin 128) (j : Fin 512), v6 (ix2 k (col 1536 1024 (by norm_num) j)) = wh (ix2 k j))
    (euz : ∀ (k : Fin 512) (j : Fin 512), v9 (ix2 k (col 1024 0 (by norm_num) j)) = uz (ix2 k j))
    (eur : ∀ (k : Fin 512) (j : Fin 512), v9 (ix2 k (col 1024 512 (by norm_num) j)) = ur (ix2 k j))
    (euh : ∀ (k : Fin 512) (j : Fin 512), v31 (ix2 k j) = uh (ix2 k j))
    (ebz : ∀ j : Fin 512, v18 (ix2 (0 : Fin 1) j) = bz (ix1 j)) (ebr : ∀ j : Fin 512, v24 (ix2 (0 : Fin 1) j) = br (ix1 j))
    (ebh : ∀ j : Fin 512, v35 (ix2 (0 : Fin 1) j) = bh (ix1 j)) :
    blockOut v0 v2 v6 v9 v18 v24 v31 v35 y = Cert.Gru.rowsAt X H wz uz bz wr ur br wh uh bh R (y 1) := by
  obtain ⟨p, j, rfl⟩ : ∃ (p : Fin 1024) (j : Fin 512), y = ix2 p j := ⟨y 0, y 1, eq_ix2 y⟩
  rw [blockOut_apply]
  unfold Cert.Gru.rowsAt
  have e0' : (fun k => v0 (ix2 p k)) = fun k => X (ix2 R k) := funext e0
  have e1' : (fun k => v2 (ix2 p k)) = fun k => H (ix2 R k) := funext e1
  have ewz' : (fun k j => v6 (ix2 k (col 1536 0 (by norm_num) j))) = fun k j => wz (ix2 k j) := funext fun k => funext (ewz k)
  have ewr' : (fun k j => v6 (ix2 k (col 1536 512 (by norm_num) j))) = fun k j => wr (ix2 k j) := funext fun k => funext (ewr k)
  have ewh' : (fun k j => v6 (ix2 k (col 1536 1024 (by norm_num) j))) = fun k j => wh (ix2 k j) := funext fun k => funext (ewh k)
  have euz' : (fun k j => v9 (ix2 k (col 1024 0 (by norm_num) j))) = fun k j => uz (ix2 k j) := funext fun k => funext (euz k)
  have eur' : (fun k j => v9 (ix2 k (col 1024 512 (by norm_num) j))) = fun k j => ur (ix2 k j) := funext fun k => funext (eur k)
  have euh' : (fun k j => v31 (ix2 k j)) = fun k j => uh (ix2 k j) := funext fun k => funext (euh k)
  have ebz' : (fun j => v18 (ix2 (0 : Fin 1) j)) = fun j => bz (ix1 j) := funext ebz
  have ebr' : (fun j => v24 (ix2 (0 : Fin 1) j)) = fun j => br (ix1 j) := funext ebr
  have ebh' : (fun j => v35 (ix2 (0 : Fin 1) j)) = fun j => bh (ix1 j) := funext ebh
  have eh : v2 (ix2 p j) = H (ix2 R j) := e1 j
  rw [e0', e1', ewz', ewr', ewh', euz', eur', euh', ebz', ebr', ebh', eh]

end Cert.KernelIdeal.KValue

end
-- ==== Proof.LibUniformConcat.lean ====
/-
  A concatenation of pieces of one shape, read at an index, and a way to state a fact about every piece of a long
  literal list at once.

  Laying `N` pieces of the same extent `K` end to end along an axis puts position `r` of the result in piece `r / K`, at
  position `r % K` of that piece: the pieces before it take up `K · (r / K)` positions. For rows of a two-axis array
  (pieces `[K, w]`, result `[T, w]`, joined along axis 0) this is `concat_blocks_pred` below.

  `Numbered P n xs` says `P n` of the first piece of `xs`, `P (n+1)` of the second, and so on: a proof supplies it for a
  literal list as one conjunction, piece by piece, and `Numbered.get` reads it back at a position given as a number.
-/
import Idealize.ShloMosaic.PureOps.Ideal
import Idealize.ShloMosaic.Lib.ValueIdx
import Idealize.ShloMosaic.Lib.Pipeline.Value

noncomputable section

namespace Idealize.ShloMosaic.UniformConcat

open Idealize.ShloMosaic Idealize.ShloMosaic.ValueIdx

variable {α : Type}

/-- `P n` of the first piece, `P (n + 1)` of the second, … -/
def Numbered {β : Type _} (P : ℕ → β → Prop) : ℕ → List β → Prop
  | _, [] => True
  | n, y :: ys => P n y ∧ Numbered P (n + 1) ys

theorem Numbered.get {β : Type _} (P : ℕ → β → Prop) : ∀ (n : ℕ) (xs : List β), Numbered P n xs →
    ∀ (k : ℕ) (hk : k < xs.length), P (n + k) xs[k]
  | _, [], _, k, hk => absurd hk (Nat.not_lt_zero _)
  | n, y :: ys, h, 0, _ => h.1
  | n, y :: ys, h, k + 1, hk => by
    have := Numbered.get P (n + 1) ys h.2 k (by simpa using hk)
    simpa [Nat.add_assoc, Nat.add_comm 1 k] using this

/-- The pieces before piece `n`, all of extent `K` along the axis, take up `K · n` positions. -/
theorem take_extent_sum {t s₁ : Shape} (a : Fin t.rank) (hr : s₁.rank = t.rank) (K : ℕ)
    (hK : s₁.size (a.cast hr.symm) = K) :
    ∀ (xs : List ((s : Shape) × (s.Idx → α))) (_ : ∀ y ∈ xs, y.1 = s₁) (n : ℕ) (_ : n ≤ xs.length),
      (((xs.take n).map (·.1)).map fun s => if h : s.rank = t.rank then s.size (a.cast h.symm) else 0).sum = K * n
  | _, _, 0, _ => by simp
  | [], _, n + 1, hn => absurd hn (by simp)
  | y :: ys, hall, n + 1, hn => by
    have hy : y.1 = s₁ := hall y (by simp)
    have ih := take_extent_sum a hr K hK ys (fun z hz => hall z (by simp [hz])) n (by simpa using hn)
    simp only [List.take_succ_cons, List.map_cons, List.sum_cons]
    rw [ih, hy, dif_pos hr, hK]
    ring

/-- A concatenation of pieces that all have the shape `s₁`, of extent `K` along the axis, read at an index: piece `n`
    at the index with the same coordinates off the axis and, on it, the position less `K · n`. -/
theorem concatenate_uniform_apply {t s₁ : Shape} (a : Fin t.rank) (xs : List ((s : Shape) × (s.Idx → α)))
    (h : Shape.Concatenates (xs.map (·.1)) t a) (hr : s₁.rank = t.rank) (K : ℕ) (hK : s₁.size (a.cast hr.symm) = K)
    (hall : ∀ y ∈ xs, y.1 = s₁) (j : t.Idx) (n : ℕ) (hn : n < xs.length) (x₁ : s₁.Idx → α) (hx : xs[n] = ⟨s₁, x₁⟩)
    (i : s₁.Idx) (hi : ∀ b : Fin s₁.rank, b.cast hr ≠ a → (i b).val = (j (b.cast hr)).val)
    (ha : K * n + (i (a.cast hr.symm)).val = (j a).val) :
    concatenate t a xs h j = x₁ i :=
  concatenate_apply_piece a xs h j n hn s₁ x₁ hx hr (K * n)
    (take_extent_sum a hr K hK xs hall n (Nat.le_of_lt hn)) i hi ha

/-- Rows: pieces `[K, w]` joined along axis 0 into `[T, w]`, every piece `n` satisfying `Q n`. The result's row `r`,
    column `c`, is row `r % K`, column `c`, of a piece that satisfies `Q (r / K)`. -/
theorem concat_blocks_pred {K w T : ℕ} (xs : List ((s : Shape) × (s.Idx → α)))
    (h : Shape.Concatenates (xs.map (·.1)) ⟨2, ![T, w]⟩ 0)
    (Q : ℕ → ((⟨2, ![K, w]⟩ : Shape).Idx → α) → Prop)
    (hxs : Numbered (fun n (y : (s : Shape) × (s.Idx → α)) => ∃ x : (⟨2, ![K, w]⟩ : Shape).Idx → α,
      y = ⟨⟨2, ![K, w]⟩, x⟩ ∧ Q n x) 0 xs)
    (hK : 0 < K) (r : Fin T) (c : Fin w) (hlt : r.val / K < xs.length) :
    ∃ x : (⟨2, ![K, w]⟩ : Shape).Idx → α, Q (r.val / K) x ∧
      concatenate ⟨2, ![T, w]⟩ 0 xs h (ix2 r c) = x (ix2 ⟨r.val % K, Nat.mod_lt _ hK⟩ c) := by
  obtain ⟨x, hx, hQ⟩ := Numbered.get _ 0 xs hxs (r.val / K) hlt
  rw [Nat.zero_add] at hQ
  refine ⟨x, hQ, ?_⟩
  have hall : ∀ y ∈ xs, y.1 = (⟨2, ![K, w]⟩ : Shape) := by
    intro y hy
    obtain ⟨k, hk, rfl⟩ := List.getElem_of_mem hy
    obtain ⟨x', hx', -⟩ := Numbered.get _ 0 xs hxs k hk
    rw [hx']
  refine concatenate_uniform_apply (t := ⟨2, ![T, w]⟩) (s₁ := ⟨2, ![K, w]⟩) (0 : Fin 2) xs h rfl K rfl hall (ix2 r c) (r.val / K) hlt x hx
    (ix2 ⟨r.val % K, Nat.mod_lt _ hK⟩ c) ?_ ?_
  · intro b hb
    match b with
    | ⟨0, _⟩ => exact absurd rfl hb
    | ⟨1, _⟩ => rfl
  · show K * (r.val / K) + r.val % K = r.val
    exact Nat.div_add_mod r.val K

end Idealize.ShloMosaic.UniformConcat

end
-- ==== Proof.Weights.lean ====
import proofs.«117107_j52450140619362_2_alg».proof.Proof.Gen.KernelIdeal
import proofs.«117107_j52450140619362_2_alg».proof.Proof.LibUniformConcat
import Idealize.ShloMosaic.Lib.ValueIdx
import Idealize.ShloMosaic.Lib.ValueLayout

/-!
# The weight matrices side by side

The program lays the three input-weight matrices (128 × 512 each) side by side into one 128 × 1536 matrix, and the
update and reset recurrent-weight matrices (512 × 512 each) into one 512 × 1024 matrix. Column `512·n + j` of such a
matrix is column `j` of its `n`-th piece.
-/

noncomputable section

namespace Cert.KernelIdeal.KValue

open Cert.KernelIdeal Idealize.ShloMosaic Idealize.ShloMosaic.ValueIdx Idealize.ShloMosaic.UniformConcat

theorem wc_apply (A0 A1 A2 : S128x512.Idx → EReal) (n : Nat) (hn : n < 3) (X : S128x512.Idx → EReal)
    (hX : ([⟨S128x512, A0⟩, ⟨S128x512, A1⟩, ⟨S128x512, A2⟩] : List ((s : Shape) × (s.Idx → EReal)))[n]'(by simpa using hn)
      = ⟨S128x512, X⟩)
    (h : Shape.Concatenates [S128x512, S128x512, S128x512] S128x1536 1)
    (k : Fin 128) (j : Fin 512) (c : Fin 1536) (hc : 512 * n + j.val = c.val) :
    concatenate S128x1536 1 [⟨S128x512, A0⟩, ⟨S128x512, A1⟩, ⟨S128x512, A2⟩] h (ix2 k c) = X (ix2 k j) :=
  concatenate_uniform_apply (t := S128x1536) (s₁ := S128x512) (1 : Fin 2) _ _ rfl 512 rfl
    (by intro y hy; simp only [List.mem_cons, List.mem_nil_iff, or_false] at hy; rcases hy with rfl | rfl | rfl <;> rfl)
    (ix2 k c) n (by simpa using hn) X hX (ix2 k j)
    (fun b hb => by
      match b with
      | ⟨0, _⟩ => rfl
      | ⟨1, _⟩ => exact absurd rfl hb)
    hc

theorem uc_apply (A0 A1 : S512x512.Idx → EReal) (n : Nat) (hn : n < 2) (X : S512x512.Idx → EReal)
    (hX : ([⟨S512x512, A0⟩, ⟨S512x512, A1⟩] : List ((s : Shape) × (s.Idx → EReal)))[n]'(by simpa using hn)
      = ⟨S512x512, X⟩)
    (h : Shape.Concatenates [S512x512, S512x512] S512x1024 1)
    (k : Fin 512) (j : Fin 512) (c : Fin 1024) (hc : 512 * n + j.val = c.val) :
    concatenate S512x1024 1 [⟨S512x512, A0⟩, ⟨S512x512, A1⟩] h (ix2 k c) = X (ix2 k j) :=
  concatenate_uniform_apply (t := S512x1024) (s₁ := S512x512) (1 : Fin 2) _ _ rfl 512 rfl
    (by intro y hy; simp only [List.mem_cons, List.mem_nil_iff, or_false] at hy; rcases hy with rfl | rfl <;> rfl)
    (ix2 k c) n (by simpa using hn) X hX (ix2 k j)
    (fun b hb => by
      match b with
      | ⟨0, _⟩ => rfl
      | ⟨1, _⟩ => exact absurd rfl hb)
    hc

end Cert.KernelIdeal.KValue

end
-- ==== Proof.KernelValue.lean ====
import proofs.«117107_j52450140619362_2_alg».proof.Proof.FrameKI
import proofs.«117107_j52450140619362_2_alg».proof.Proof.KernelRow
import proofs.«117107_j52450140619362_2_alg».proof.Proof.Weights
import Idealize.ShloMosaic.Lib.Pipeline.Value
import Idealize.ShloMosaic.Lib.StableHlo.Run
import Idealize.ShloMosaic.Lib.ValueIdx
import Idealize.ShloMosaic.Lib.ValueLayout

/-!
# What the kernel's program computes, at the ideal values

The region's nine windows are staged from nine arrays the host operations before it wrote: the input and the state
flattened to rows, the three input-weight matrices side by side, the update and reset recurrent-weight matrices side by
side, the candidate's recurrent weights, and the three biases as rows. Grid point `t` reads rows
`1024·t … 1024·t + 1023` of the two row arrays and the whole of the others, and writes back rows
`1024·t … 1024·t + 1023` of the result: the recurrent unit's new state of those rows. The 128 blocks tile the result, so
after the region it holds the new state of all 131072 rows, and the final reshape gives it its three axes back.
-/

noncomputable section

namespace Cert.KernelIdeal.KValue

open Cert.KernelIdeal Cert.KernelIdeal.Gen Cert.KernelIdeal.HFrame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the region finds -/

/-- The input, flattened to rows. -/
theorem V_v0 (c : Dev nD) : (V m c main_v0 : S131072x128.Idx → EReal)
    = shapeCast S131072x128 (m ((c : Thread nD τ).loc main_arg0)) shapeCasts_S1024x128x128_S131072x128 := by
  show StableHlo.after hostOps0 (fun b => m (c, b)) (Proc.devRef .tc main_v0) = _
  after_results; rfl

/-- The state, flattened to rows. -/
theorem V_v1 (c : Dev nD) : (V m c main_v1 : S131072x512.Idx → EReal)
    = shapeCast S131072x512 (m ((c : Thread nD τ).loc main_arg1)) shapeCasts_S1024x128x512_S131072x512 := by
  show StableHlo.after hostOps0 (fun b => m (c, b)) (Proc.devRef .tc main_v1) = _
  after_results; rfl

/-- The three input-weight matrices side by side. -/
theorem V_v3 (c : Dev nD) : (V m c main_v3 : S128x1536.Idx → EReal)
    = concatenate S128x1536 1 [⟨S128x512, m ((c : Thread nD τ).loc main_arg2)⟩, ⟨S128x512, m ((c : Thread nD τ).loc main_arg5)⟩,
        ⟨S128x512, m ((c : Thread nD τ).loc main_arg8)⟩] concatenates_S128x512_S128x512_S128x512_S128x1536_d1 := by
  show StableHlo.after hostOps0 (fun b => m (c, b)) (Proc.devRef .tc main_v3) = _
  after_results; rfl

/-- The update and reset recurrent-weight matrices side by side. -/
theorem V_v5 (c : Dev nD) : (V m c main_v5 : S512x1024.Idx → EReal)
    = concatenate S512x1024 1 [⟨S512x512, m ((c : Thread nD τ).loc main_arg3)⟩, ⟨S512x512, m ((c : Thread nD τ).loc main_arg6)⟩]
        concatenates_S512x512_S512x512_S512x1024_d1 := by
  show StableHlo.after hostOps0 (fun b => m (c, b)) (Proc.devRef .tc main_v5) = _
  after_results; rfl

/-- The candidate's recurrent weights. -/
theorem V_v6 (c : Dev nD) : (V m c main_v6 : S512x512.Idx → EReal) = m ((c : Thread nD τ).loc main_arg9) := by
  show StableHlo.after hostOps0 (fun b => m (c, b)) (Proc.devRef .tc main_v6) = _
  after_results; rfl

/-- The three biases as rows. -/
theorem V_v7 (c : Dev nD) : (V m c main_v7 : S1x512.Idx → EReal)
    = shapeCast S1x512 (m ((c : Thread nD τ).loc main_arg4)) shapeCasts_S512_S1x512 := by
  show StableHlo.after hostOps0 (fun b => m (c, b)) (Proc.devRef .tc main_v7) = _
  after_results; rfl
theorem V_v8 (c : Dev nD) : (V m c main_v8 : S1x512.Idx → EReal)
    = shapeCast S1x512 (m ((c : Thread nD τ).loc main_arg7)) shapeCasts_S512_S1x512 := by
  show StableHlo.after hostOps0 (fun b => m (c, b)) (Proc.devRef .tc main_v8) = _
  after_results; rfl
theorem V_v9 (c : Dev nD) : (V m c main_v9 : S1x512.Idx → EReal)
    = shapeCast S1x512 (m ((c : Thread nD τ).loc main_arg10)) shapeCasts_S512_S1x512 := by
  show StableHlo.after hostOps0 (fun b => m (c, b)) (Proc.devRef .tc main_v9) = _
  after_results; rfl

/-! ## The blocks -/

theorem hz : (![0, 0] : Fin 2 → Nat) = fun _ => 0 := funext fun a => by fin_cases a <;> rfl

/-- The index maps over the grid: the two row windows and the output sit at block `t` of the rows at point `t`; the
    weights' and biases' windows never move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 128 := lt_of_lt_of_eq t.isLt N_0

/-! A weight or bias window's block is its whole array. -/
theorem blk2_read (c : Dev nD) (t : Fin cfg0.N) (k : Fin 128) (j : Fin 1536) :
    iblk m c 2 t (ix2 k j) = V m c main_v3 (ix2 k j) := by
  obtain ⟨-, -, -, -, i20, i21, i30, i31, i40, i41, i50, i51, i60, i61, i70, i71, -, -⟩ := idx_facts t
  show V m c main_v3 (((cfg0.win 2).blk t).view.emb (ix2 k j)) = V m c main_v3 (ix2 k j)
  refine congrArg (V m c main_v3) ?_
  funext a; apply Fin.ext
  match a with
  | ⟨0, _⟩ => show win0_2.index t (0 : Fin 2) * 128 + 1 * k.val = k.val; omega
  | ⟨1, _⟩ => show win0_2.index t (1 : Fin 2) * 1536 + 1 * j.val = j.val; omega
theorem blk3_read (c : Dev nD) (t : Fin cfg0.N) (k : Fin 512) (j : Fin 1024) :
    iblk m c 3 t (ix2 k j) = V m c main_v5 (ix2 k j) := by
  obtain ⟨-, -, -, -, i20, i21, i30, i31, i40, i41, i50, i51, i60, i61, i70, i71, -, -⟩ := idx_facts t
  show V m c main_v5 (((cfg0.win 3).blk t).view.emb (ix2 k j)) = V m c main_v5 (ix2 k j)
  refine congrArg (V m c main_v5) ?_
  funext a; apply Fin.ext
  match a with
  | ⟨0, _⟩ => show win0_3.index t (0 : Fin 2) * 512 + 1 * k.val = k.val; omega
  | ⟨1, _⟩ => show win0_3.index t (1 : Fin 2) * 1024 + 1 * j.val = j.val; omega
theorem blk4_read (c : Dev nD) (t : Fin cfg0.N) (k : Fin 512) (j : Fin 512) :
    iblk m c 4 t (ix2 k j) = V m c main_v6 (ix2 k j) := by
  obtain ⟨-, -, -, -, i20, i21, i30, i31, i40, i41, i50, i51, i60, i61, i70, i71, -, -⟩ := idx_facts t
  show V m c main_v6 (((cfg0.win 4).blk t).view.emb (ix2 k j)) = V m c main_v6 (ix2 k j)
  refine congrArg (V m c main_v6) ?_
  funext a; apply Fin.ext
  match a with
  | ⟨0, _⟩ => show win0_4.index t (0 : Fin 2) * 512 + 1 * k.val = k.val; omega
  | ⟨1, _⟩ => show win0_4.index t (1 : Fin 2) * 512 + 1 * j.val = j.val; omega
theorem blk5_read (c : Dev nD) (t : Fin cfg0.N) (k : Fin 1) (j : Fin 512) :
    iblk m c 5 t (ix2 k j) = V m c main_v7 (ix2 k j) := by
  obtain ⟨-, -, -, -, i20, i21, i30, i31, i40, i41, i50, i51, i60, i61, i70, i71, -, -⟩ := idx_facts t
  show V m c main_v7 (((cfg0.win 5).blk t).view.emb (ix2 k j)) = V m c main_v7 (ix2 k j)
  refine congrArg (V m c main_v7) ?_
  funext a; apply Fin.ext
  match a with
  | ⟨0, _⟩ => show win0_5.index t (0 : Fin 2) * 1 + 1 * k.val = k.val; omega
  | ⟨1, _⟩ => show win0_5.index t (1 : Fin 2) * 512 + 1 * j.val = j.val; omega
theorem blk6_read (c : Dev nD) (t : Fin cfg0.N) (k : Fin 1) (j : Fin 512) :
    iblk m c 6 t (ix2 k j) = V m c main_v8 (ix2 k j) := by
  obtain ⟨-, -, -, -, i20, i21, i30, i31, i40, i41, i50, i51, i60, i61, i70, i71, -, -⟩ := idx_facts t
  show V m c main_v8 (((cfg0.win 6).blk t).view.emb (ix2 k j)) = V m c main_v8 (ix2 k j)
  refine congrArg (V m c main_v8) ?_
  funext a; apply Fin.ext
  match a with
  | ⟨0, _⟩ => show win0_6.index t (0 : Fin 2) * 1 + 1 * k.val = k.val; omega
  | ⟨1, _⟩ => show win0_6.index t (1 : Fin 2) * 512 + 1 * j.val = j.val; omega
theorem blk7_read (c : Dev nD) (t : Fin cfg0.N) (k : Fin 1) (j : Fin 512) :
    iblk m c 7 t (ix2 k j) = V m c main_v9 (ix2 k j) := by
  obtain ⟨-, -, -, -, i20, i21, i30, i31, i40, i41, i50, i51, i60, i61, i70, i71, -, -⟩ := idx_facts t
  show V m c main_v9 (((cfg0.win 7).blk t).view.emb (ix2 k j)) = V m c main_v9 (ix2 k j)
  refine congrArg (V m c main_v9) ?_
  funext a; apply Fin.ext
  match a with
  | ⟨0, _⟩ => show win0_7.index t (0 : Fin 2) * 1 + 1 * k.val = k.val; omega
  | ⟨1, _⟩ => show win0_7.index t (1 : Fin 2) * 512 + 1 * j.val = j.val; omega

/-- The new state of all 131072 rows, from the arrays the region finds and the launch contents of the weights and biases. -/
def newRows (c : Dev nD) : S131072x512.Idx → EReal :=
  Cert.Gru.rows (V m c main_v0) (V m c main_v1) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What point `t` writes back is block `t` of the new state of all rows. -/
theorem flushed_eq (c : Dev nD) (t : Fin cfg0.N) :
    (dats m 0 c).flushed 8 t = ((cfg0.win 8).blk t).view.read (Elt Ideal) (newRows m c) := by
  show (cfg0.win 8).cut (grid0.coords t) ((dats m 0 c).after 8 t) = _
  rw [after0_8]
  unfold out0_8 newState
  rw [View.canon_unit_zero hz]
  simp only [View.ld_unit_zero (S := S1024x128) hz, View.ld_unit_zero (S := S1024x512) hz, View.ld_unit_zero (S := S128x1536) hz,
    View.ld_unit_zero (S := S512x1024) hz, View.ld_unit_zero (S := S512x512) hz, View.ld_unit_zero (S := S1x512) hz]
  obtain ⟨i00, i01, i10, i11, -, -, -, -, -, -, -, -, -, -, -, -, i80, i81⟩ := idx_facts t
  have ht := t_lt t
  funext y
  show blockOut (iblk m c 0 t) (iblk m c 1 t) (iblk m c 2 t) (iblk m c 3 t) (iblk m c 5 t) (iblk m c 6 t) (iblk m c 4 t) (iblk m c 7 t) y
    = newRows m c (((cfg0.win 8).blk t).view.emb y)
  have hy0 : (y 0).val < 1024 := (y 0).isLt
  have hy1 : (y 1).val < 512 := (y 1).isLt
  have hR : t.val * 1024 + (y 0).val < 131072 := by omega
  have hemb : ((cfg0.win 8).blk t).view.emb y = ix2 (⟨t.val * 1024 + (y 0).val, hR⟩ : Fin 131072) (y 1) := by
    funext a; apply Fin.ext
    match a with
    | ⟨0, _⟩ => show win0_8.index t (0 : Fin 2) * 1024 + 1 * (y 0).val = t.val * 1024 + (y 0).val; omega
    | ⟨1, _⟩ => show win0_8.index t (1 : Fin 2) * 512 + 1 * (y 1).val = (y 1).val; omega
  refine Eq.trans ?_ (congrArg (newRows m c) hemb).symm
  refine blockOut_eq_rowsAt (V m c main_v0) (V m c main_v1) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    (iblk m c 0 t) (iblk m c 1 t) (iblk m c 2 t) (iblk m c 3 t) (iblk m c 5 t) (iblk m c 6 t) (iblk m c 4 t) (iblk m c 7 t) y
    ⟨t.val * 1024 + (y 0).val, hR⟩ ?e0 ?e1 ?ewz ?ewr ?ewh ?euz ?eur ?euh ?ebz ?ebr ?ebh
  case e0 =>
    intro k
    show V m c main_v0 (((cfg0.win 0).blk t).view.emb (ix2 (y 0) k)) = V m c main_v0 (ix2 ⟨t.val * 1024 + (y 0).val, hR⟩ k)
    refine congrArg (V m c main_v0) ?_
    funext a; apply Fin.ext
    match a with
    | ⟨0, _⟩ => show win0_0.index t (0 : Fin 2) * 1024 + 1 * (y 0).val = t.val * 1024 + (y 0).val; omega
    | ⟨1, _⟩ => show win0_0.index t (1 : Fin 2) * 128 + 1 * k.val = k.val; omega
  case e1 =>
    intro k
    show V m c main_v1 (((cfg0.win 1).blk t).view.emb (ix2 (y 0) k)) = V m c main_v1 (ix2 ⟨t.val * 1024 + (y 0).val, hR⟩ k)
    refine congrArg (V m c main_v1) ?_
    funext a; apply Fin.ext
    match a with
    | ⟨0, _⟩ => show win0_1.index t (0 : Fin 2) * 1024 + 1 * (y 0).val = t.val * 1024 + (y 0).val; omega
    | ⟨1, _⟩ => show win0_1.index t (1 : Fin 2) * 512 + 1 * k.val = k.val; omega
  case ewz =>
    intro k j
    refine (blk2_read m c t k _).trans ((congrFun (V_v3 m c) _).trans ?_)
    exact wc_apply _ _ _ 0 (by norm_num) _ rfl _ k j _ (by show 512 * 0 + j.val = 0 + j.val; omega)
  case ewr =>
    intro k j
    refine (blk2_read m c t k _).trans ((congrFun (V_v3 m c) _).trans ?_)
    exact wc_apply _ _ _ 1 (by norm_num) _ rfl _ k j _ (by show 512 * 1 + j.val = 512 + j.val; omega)
  case ewh =>
    intro k j
    refine (blk2_read m c t k _).trans ((congrFun (V_v3 m c) _).trans ?_)
    exact wc_apply _ _ _ 2 (by norm_num) _ rfl _ k j _ (by show 512 * 2 + j.val = 1024 + j.val; omega)
  case euz =>
    intro k j
    refine (blk3_read m c t k _).trans ((congrFun (V_v5 m c) _).trans ?_)
    exact uc_apply _ _ 0 (by norm_num) _ rfl _ k j _ (by show 512 * 0 + j.val = 0 + j.val; omega)
  case eur =>
    intro k j
    refine (blk3_read m c t k _).trans ((congrFun (V_v5 m c) _).trans ?_)
    exact uc_apply _ _ 1 (by norm_num) _ rfl _ k j _ (by show 512 * 1 + j.val = 512 + j.val; omega)
  case euh =>
    intro k j
    exact (blk4_read m c t k j).trans (congrFun (V_v6 m c) _)
  case ebz =>
    intro j
    refine (blk5_read m c t 0 j).trans ((congrFun (V_v7 m c) _).trans ?_)
    exact shapeCast_a_1a_apply _ _ 0 j
  case ebr =>
    intro j
    refine (blk6_read m c t 0 j).trans ((congrFun (V_v8 m c) _).trans ?_)
    exact shapeCast_a_1a_apply _ _ 0 j
  case ebh =>
    intro j
    refine (blk7_read m c t 0 j).trans ((congrFun (V_v9 m c) _).trans ?_)
    exact shapeCast_a_1a_apply _ _ 0 j

/-! ## The blocks tile the result -/

theorem mem_blk8 (t : Fin cfg0.N) (i : S131072x512.Idx) :
    i ∈ ((cfg0.win 8).blk t).view.set ↔ ∀ a : Fin 2, win0_8.index t a * S1024x512.size a ≤ (i a).val
      ∧ (i a).val < win0_8.index t a * S1024x512.size a + S1024x512.size a := by
  show i ∈ ((View.whole main_v10).slice (win0_8.rect t)).set ↔ _
  rw [View.set_slice_whole, Rect.mem_set_unit]
  exact Iff.rfl

/-- Row `r` of the result lies in the block of point `r / 1024`. -/
theorem cover8 (i : S131072x512.Idx) :
    ∃ t : Fin cfg0.N, (cfg0.win 8).flush t = true ∧ i ∈ ((cfg0.win 8).blk t).view.set := by
  have hi0 : (i 0).val < 131072 := (i 0).isLt
  have hi1 : (i 1).val < 512 := (i 1).isLt
  have hN : cfg0.N = 128 := N_0
  have htl : (i 0).val / 1024 < cfg0.N := by rw [hN]; omega
  obtain ⟨-, -, -, -, -, -, -, -, -, -, -, -, -, -, -, -, i80, i81⟩ := idx_facts ⟨(i 0).val / 1024, htl⟩
  refine ⟨⟨(i 0).val / 1024, htl⟩, flush0_8 _, ?_⟩
  rw [mem_blk8]
  intro a
  match a with
  | ⟨0, _⟩ =>
    show win0_8.index ⟨(i 0).val / 1024, htl⟩ (0 : Fin 2) * 1024 ≤ (i 0).val
      ∧ (i 0).val < win0_8.index ⟨(i 0).val / 1024, htl⟩ (0 : Fin 2) * 1024 + 1024
    have e : win0_8.index ⟨(i 0).val / 1024, htl⟩ (0 : Fin 2) = (i 0).val / 1024 := i80
    omega
  | ⟨1, _⟩ =>
    show win0_8.index ⟨(i 0).val / 1024, htl⟩ (1 : Fin 2) * 512 ≤ (i 1).val
      ∧ (i 1).val < win0_8.index ⟨(i 0).val / 1024, htl⟩ (1 : Fin 2) * 512 + 512
    omega

/-- After the region the result array holds the new state of all rows. -/
theorem final8 (c : Dev nD) : (dats m 0 c).arrAt 8 cfg0.N = newRows m c :=
  (dats m 0 c).arrAt_eq_of_cover 8 (newRows m c) (fun t _ => flushed_eq m c t) cover8

/-! ## The program's result -/

/-- The new state of all rows from the launch contents of the eleven argument arrays. -/
def newRows' (c : Dev nD) : S131072x512.Idx → EReal :=
  Cert.Gru.rows (shapeCast S131072x128 (m ((c : Thread nD τ).loc main_arg0)) shapeCasts_S1024x128x128_S131072x128)
    (shapeCast S131072x512 (m ((c : Thread nD τ).loc main_arg1)) shapeCasts_S1024x128x512_S131072x512) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

theorem newRows_eq (c : Dev nD) : newRows m c = newRows' m c := by
  unfold newRows newRows'
  rw [V_v0, V_v1]

/-- The result buffer after the final reshape: the new state of all rows, with its three axes back. -/
theorem result_eq (c : Dev nD) :
    (Pipeline.afterTail₀ cfgs (dats m) 0 (V0 m) [hostOps1] c main_v11 : S1024x128x512.Idx → EReal)
      = shapeCast S1024x128x512 (newRows' m c) shapeCasts_S131072x512_S1024x128x512 := by
  unfold Pipeline.afterTail₀
  show StableHlo.after hostOps1 _ (Proc.devRef .tc main_v11) = _
  after_results
  rw [show Pipeline.withArrays (cfgs 0).spec c (V0 m c) (fun w => (dats m 0 c).arrAt w (cfgs 0).N) (Proc.tc.devRef main_v10)
      = newRows' m c from
    (Pipeline.withArrays_arr spec0 launch0.win.arr_inj c _ _ 8).trans ((final8 m c).trans (newRows_eq m c))]
  rfl

/-- Every weakly fair execution of the kernel's program terminates without a fault, with the result buffer at the new
    state of all rows and the eleven argument arrays unchanged. -/
theorem run : θ_run defs (onTc (τ := τ) (main (F := Ideal))) ⟨m, fun _ => 0, ρ⟩ (fun r => ∀ c : Dev nD,
      r.2.mem ((c.tc : Thread nD τ).loc main_v11) = shapeCast S1024x128x512 (newRows' m c) shapeCasts_S131072x512_S1024x128x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m ρ)

end Cert.KernelIdeal.KValue

end
-- ==== Proof.RefRows.lean ====
import proofs.«117107_j52450140619362_2_alg».proof.Proof.Gen.ReferenceIdeal.Read
import proofs.«117107_j52450140619362_2_alg».proof.Proof.Spec
import Idealize.ShloMosaic.Lib.ValueIdx
import Idealize.ShloMosaic.PureOps.Ideal.Laws

/-!
# The reference's value is the specification's

Entry `(r, j)` of the reference's array before its final change of shape is
`(1 − z) h + z h̃` with `z = 1 / (1 + exp (−(x·w_z + h·u_z + b_z)))`, the reset gate likewise, and
`h̃ = tanh (x·w_h + (r ⊙ h)·u_h + b_h)`, each sum in the order `(∑ x·w) + (∑ g·u) + b`. The quotient
`1 / (1 + exp (−a))` is the logistic function of `a` by definition, and `(1 − z) h + z h̃ = h + z (h̃ − h)` when `h` is
a real number, so the array is `Cert.Gru.rows` of the row-flattened input and state.
-/

noncomputable section

open scoped BigOperators

namespace Cert.ReferenceIdeal.RefValue

open Cert.ReferenceIdeal Cert.ReferenceIdeal.Read Idealize.ShloMosaic Idealize.ShloMosaic.ValueIdx

/-- The word `0x3F800000` is the number one. -/
theorem one_f32 : Ideal.ofBits .f32 0x3F800000#32 = 1 := IdealRules.sign_bit.ideal_onePat .f32

/-! ## Where each operation reads its operands, at entry `(r, j)`

A contraction over 128 attributes or over 512 hidden units reads its left operand at `(r, k)` and its right operand at
`(k, j)`; a bias broadcast to all rows reads the bias at `j`. -/

theorem lidx128 (r : Fin 131072) (j : Fin 512) (k : Fin 128) : lidx_main_v2 (ix2 r j) k = ix2 r k :=
  funext fun a => Fin.ext (by match a with | ⟨0, _⟩ => rfl | ⟨1, _⟩ => rfl)
theorem ridx128 (r : Fin 131072) (j : Fin 512) (k : Fin 128) : ridx_main_v2 (ix2 r j) k = ix2 k j :=
  funext fun a => Fin.ext (by match a with | ⟨0, _⟩ => rfl | ⟨1, _⟩ => rfl)
theorem lidx512 (r : Fin 131072) (j : Fin 512) (k : Fin 512) : lidx_main_v3 (ix2 r j) k = ix2 r k :=
  funext fun a => Fin.ext (by match a with | ⟨0, _⟩ => rfl | ⟨1, _⟩ => rfl)
theorem ridx512 (r : Fin 131072) (j : Fin 512) (k : Fin 512) : ridx_main_v3 (ix2 r j) k = ix2 k j :=
  funext fun a => Fin.ext (by match a with | ⟨0, _⟩ => rfl | ⟨1, _⟩ => rfl)
theorem bidx (r : Fin 131072) (j : Fin 512) : idx_main_v5 (idx_main_v6 (ix2 r j)) = ix1 j :=
  funext fun a => Fin.ext (by match a with | ⟨0, _⟩ => rfl)

/-! ## A gate: `1 / (1 + exp (−(x·w + h·u + b)))` is the logistic function of `x·w + h·u + b` -/

theorem gate_apply (x0 : (⟨S1024x128x128, .f32⟩ : BufTy).Contents (Elt Ideal)) (x1 : (⟨S1024x128x512, .f32⟩ : BufTy).Contents (Elt Ideal))
    (w : (⟨S128x512, .f32⟩ : BufTy).Contents (Elt Ideal)) (u : (⟨S512x512, .f32⟩ : BufTy).Contents (Elt Ideal)) (b : (⟨S512, .f32⟩ : BufTy).Contents (Elt Ideal)) (r : Fin 131072) (j : Fin 512) :
    val_main_v13 (F := Ideal) x0 x1 w u b (ix2 r j)
      = Cert.Gru.zGate (fun k => val_main_v0 (F := Ideal) x0 (ix2 r k)) (fun k => val_main_v1 (F := Ideal) x1 (ix2 r k))
          (fun k j => w (ix2 k j)) (fun k j => u (ix2 k j)) (fun j => b (ix1 j)) j := by
  unfold Cert.Gru.zGate Cert.Gru.pre Ideal.logistic
  rw [val_main_v13_apply, val_main_v12_apply, val_main_cst_0_apply, val_main_v11_apply, val_main_v10_apply,
    val_main_cst_apply, val_main_v9_apply, val_main_v8_apply, val_main_v7_apply, val_main_v4_apply, val_main_v2_apply,
    val_main_v3_apply, val_main_v6_apply, val_main_v5_apply]
  simp only [lidx128, ridx128, lidx512, ridx512, bidx, Ideal.hostDivf_def, Ideal.hostUnary_exp_def, Ideal.hostNegf_def,
    Ideal.negf_def, Ideal.addf_def, Ideal.ofBits_def, one_f32]

/-- The reset gate is the same array function as the update gate, of its own weights. -/
theorem reset_eq (x0 : (⟨S1024x128x128, .f32⟩ : BufTy).Contents (Elt Ideal)) (x1 : (⟨S1024x128x512, .f32⟩ : BufTy).Contents (Elt Ideal))
    (w : (⟨S128x512, .f32⟩ : BufTy).Contents (Elt Ideal)) (u : (⟨S512x512, .f32⟩ : BufTy).Contents (Elt Ideal)) (b : (⟨S512, .f32⟩ : BufTy).Contents (Elt Ideal)) :
    val_main_v25 (F := Ideal) x0 x1 w u b = val_main_v13 (F := Ideal) x0 x1 w u b := rfl

/-! ## The candidate state -/

theorem cand_apply (x0 : (⟨S1024x128x128, .f32⟩ : BufTy).Contents (Elt Ideal)) (x1 : (⟨S1024x128x512, .f32⟩ : BufTy).Contents (Elt Ideal))
    (x5 : (⟨S128x512, .f32⟩ : BufTy).Contents (Elt Ideal)) (x6 : (⟨S512x512, .f32⟩ : BufTy).Contents (Elt Ideal)) (x7 : (⟨S512, .f32⟩ : BufTy).Contents (Elt Ideal)) (x8 : (⟨S128x512, .f32⟩ : BufTy).Contents (Elt Ideal)) (x9 : (⟨S512x512, .f32⟩ : BufTy).Contents (Elt Ideal)) (x10 : (⟨S512, .f32⟩ : BufTy).Contents (Elt Ideal))
    (r : Fin 131072) (j : Fin 512) :
    val_main_v33 (F := Ideal) x0 x1 x5 x6 x7 x8 x9 x10 (ix2 r j)
      = Cert.Gru.cand (fun k => val_main_v0 (F := Ideal) x0 (ix2 r k)) (fun k => val_main_v1 (F := Ideal) x1 (ix2 r k))
          (fun k j => x5 (ix2 k j)) (fun k j => x6 (ix2 k j)) (fun j => x7 (ix1 j))
          (fun k j => x8 (ix2 k j)) (fun k j => x9 (ix2 k j)) (fun j => x10 (ix1 j)) j := by
  unfold Cert.Gru.cand Cert.Gru.pre
  rw [val_main_v33_apply, val_main_v32_apply, val_main_v29_apply, val_main_v26_apply, val_main_v28_apply,
    val_main_v31_apply, val_main_v30_apply]
  have hk : ∀ k : Fin 512, val_main_v27 (F := Ideal) x0 x1 x5 x6 x7 (lidx_main_v28 (ix2 r j) k)
      = Cert.Gru.zGate (fun k => val_main_v0 (F := Ideal) x0 (ix2 r k)) (fun k => val_main_v1 (F := Ideal) x1 (ix2 r k))
          (fun k j => x5 (ix2 k j)) (fun k j => x6 (ix2 k j)) (fun j => x7 (ix1 j)) k
        * val_main_v1 (F := Ideal) x1 (ix2 r k) := by
    intro k
    rw [show lidx_main_v28 (ix2 r j) k = ix2 r k from lidx512 r j k, val_main_v27_apply, reset_eq, gate_apply]
    rfl
  simp only [hk, show ∀ k, lidx_main_v26 (ix2 r j) k = ix2 r k from lidx128 r j,
    show ∀ k, ridx_main_v26 (ix2 r j) k = ix2 k j from ridx128 r j,
    show ∀ k, ridx_main_v28 (ix2 r j) k = ix2 k j from ridx512 r j,
    show idx_main_v30 (idx_main_v31 (ix2 r j)) = ix1 j from bidx r j, Ideal.hostUnary_tanh_def, Ideal.addf_def]

/-! ## The new state of every row -/

/-- The reference's array before its last reshape is the specification's array, of the row-flattened input and state, when
    every entry of the state is a real number: `(1 − z) h + z h̃ = h + z (h̃ − h)` there. -/
theorem ref_rows (x0 : (⟨S1024x128x128, .f32⟩ : BufTy).Contents (Elt Ideal)) (x1 : (⟨S1024x128x512, .f32⟩ : BufTy).Contents (Elt Ideal)) (x2 : (⟨S128x512, .f32⟩ : BufTy).Contents (Elt Ideal)) (x3 : (⟨S512x512, .f32⟩ : BufTy).Contents (Elt Ideal)) (x4 : (⟨S512, .f32⟩ : BufTy).Contents (Elt Ideal)) (x5 : (⟨S128x512, .f32⟩ : BufTy).Contents (Elt Ideal)) (x6 : (⟨S512x512, .f32⟩ : BufTy).Contents (Elt Ideal)) (x7 : (⟨S512, .f32⟩ : BufTy).Contents (Elt Ideal)) (x8 : (⟨S128x512, .f32⟩ : BufTy).Contents (Elt Ideal)) (x9 : (⟨S512x512, .f32⟩ : BufTy).Contents (Elt Ideal)) (x10 : (⟨S512, .f32⟩ : BufTy).Contents (Elt Ideal))
      (hreal : ∀ i, ∃ q : ℝ, x1 i = (q : EReal)) :
      Read.val_main_v38 (F := Ideal) x0 x1 x2 x3 x4 x5 x6 x7 x8 x9 x10
        = Cert.Gru.rows (Read.val_main_v0 (F := Ideal) x0) (Read.val_main_v1 (F := Ideal) x1) x2 x3 x4 x5 x6 x7 x8 x9 x10 := by
  funext i
  obtain ⟨r, j, rfl⟩ : ∃ (r : Fin 131072) (j : Fin 512), i = ix2 r j := ⟨i 0, i 1, eq_ix2 i⟩
  rw [Cert.Gru.rows_ix2, Cert.Gru.rowsAt_eq_stepR _ _ _ _ _ _ _ _ _ _ _ r j (by rw [val_main_v1_apply]; exact hreal _)]
  rw [val_main_v38_apply, val_main_v36_apply, val_main_v35_apply, val_main_v34_apply, val_main_cst_3_apply,
    val_main_v37_apply, gate_apply, cand_apply]
  simp only [Ideal.addf_def, Ideal.mulf_def, Ideal.subf_def, Ideal.ofBits_def, one_f32]
  rfl

end Cert.ReferenceIdeal.RefValue

end
-- ==== Proof.Finite.lean ====
/-
  The precondition "every float input is finite", read back at the state array.

  The printed predicate is a conjunction of eleven tests, one per input: each takes the absolute value of every
  entry, compares it with +∞ by "less than", and folds the one-bit answers by "and" from 1. The predicate holding
  (its one-bit result is 1) therefore gives, for the second input (the state array), |x| < +∞ at every entry x.
  At the ideal values an entry is an extended real, its absolute value is max x (-x), and the word 0x7F800000
  denotes ⊤; an extended real with max x (-x) < ⊤ is neither ⊥ nor ⊤, so it is a real number.
-/
import proofs.«117107_j52450140619362_2_alg».proof.Pre_finite_inputs
import proofs.«117107_j52450140619362_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.GruFinite

open Idealize.ShloMosaic
open Cert.Pre_finite_inputs

/-- The rank-0 shape has exactly one index. -/
instance subsingleton_scalar_idx : Subsingleton S_.Idx := ⟨fun a b => funext fun d => d.elim0⟩

/-- An elementwise "and" of two one-bit arrays that is 1 at an index has both operands 1 there. -/
theorem andi_apply_eq_one {s : Shape} (x y : IVec s 1) (j : s.Idx) (h : andi x y j = 1#1) :
    x j = 1#1 ∧ y j = 1#1 :=
  IntOp.andi_eq_one.1 h

/-- A one-bit word made from a Boolean is 1 exactly when the Boolean is true. -/
theorem ofBool_eq_one (b : Bool) : BitVec.ofBool b = 1#1 ↔ b = true := by cases b <;> decide

/-- The single-precision word 0x7F800000 denotes +∞. -/
theorem ofBits_inf : Ideal.ofBits .f32 0x7F800000#32 = (⊤ : EReal) := by simp [Ideal.ofBits, Ideal.ieee]

/-- An extended real whose absolute value max x (-x) lies below ⊤ is a real number: ⊥ has -⊥ = ⊤ and ⊤ is ⊤. -/
theorem real_of_abs_lt_top (x : EReal) (h : max x (-x) < ⊤) : ∃ q : ℝ, x = (q : EReal) := by
  induction x using EReal.rec with
  | bot => simp at h
  | coe r => exact ⟨r, rfl⟩
  | top => simp at h

/-- The comparison "|x| < +∞" answering 1 says x is a real number. -/
theorem real_of_cmp (x : EReal) (h : Ideal.cmp .olt (max x (-x)) (Ideal.ofBits .f32 0x7F800000#32) = 1#1) :
    ∃ q : ℝ, x = (q : EReal) := by
  rw [ofBits_inf] at h
  unfold Ideal.cmp at h
  rw [ofBool_eq_one] at h
  exact real_of_abs_lt_top x (of_decide_eq_true h)

/-- Under the precondition every entry of the state array (the second input) is a real number. -/
theorem state_real
    (a0 : FVec Ideal Cert.Pre_finite_inputs.S1024x128x128 .f32) (a1 : FVec Ideal Cert.Pre_finite_inputs.S1024x128x512 .f32)
    (a2 : FVec Ideal Cert.Pre_finite_inputs.S128x512 .f32) (a3 : FVec Ideal Cert.Pre_finite_inputs.S512x512 .f32)
    (a4 : FVec Ideal Cert.Pre_finite_inputs.S512 .f32) (a5 : FVec Ideal Cert.Pre_finite_inputs.S128x512 .f32)
    (a6 : FVec Ideal Cert.Pre_finite_inputs.S512x512 .f32) (a7 : FVec Ideal Cert.Pre_finite_inputs.S512 .f32)
    (a8 : FVec Ideal Cert.Pre_finite_inputs.S128x512 .f32) (a9 : FVec Ideal Cert.Pre_finite_inputs.S512x512 .f32)
    (a10 : FVec Ideal Cert.Pre_finite_inputs.S512 .f32)
    (h : Cert.Pre_finite_inputs.fn (F := Ideal) a0 a1 a2 a3 a4 a5 a6 a7 a8 a9 a10 = fun _ => 1#1)
    (i : Cert.Pre_finite_inputs.S1024x128x512.Idx) : ∃ q : ℝ, a1 i = (q : EReal) := by
  -- the predicate's one-bit result, at its one index
  have e := congrFun h ValueIdx.ix0
  dsimp only [fn, fn_part1, fn_part2, fn_part3] at e
  -- the result is a left-nested conjunction of the eleven tests; the state array's is the second
  have e1 := (andi_apply_eq_one _ _ _ e).1
  have e2 := (andi_apply_eq_one _ _ _ e1).1
  have e3 := (andi_apply_eq_one _ _ _ e2).1
  have e4 := (andi_apply_eq_one _ _ _ e3).1
  have e5 := (andi_apply_eq_one _ _ _ e4).1
  have e6 := (andi_apply_eq_one _ _ _ e5).1
  have e7 := (andi_apply_eq_one _ _ _ e6).1
  have e8 := (andi_apply_eq_one _ _ _ e7).1
  have e9 := (andi_apply_eq_one _ _ _ e8).1
  have e10 := (andi_apply_eq_one _ _ _ e9).2
  -- a fold by "and" over every axis that is 1 met a 1 at every entry
  have e11 := Host.reduce_andi_all _ _ _ _ _ e10 i
  -- that entry is the comparison |a1 i| < +∞
  exact real_of_cmp (a1 i) e11

end Cert.GruFinite

end
-- ==== Proof.lean ====
import proofs.«117107_j52450140619362_2_alg».proof.Defs
import proofs.«117107_j52450140619362_2_alg».proof.Proof.Gen.Kernel
import proofs.«117107_j52450140619362_2_alg».proof.Proof.Gen.KernelIdeal
import proofs.«117107_j52450140619362_2_alg».proof.Proof.Gen.ReferenceIdeal
import proofs.«117107_j52450140619362_2_alg».proof.Proof.Gen.Pre_finite_inputs
import proofs.«117107_j52450140619362_2_alg».proof.Proof.Gen.ReferenceIdeal.Run
import proofs.«117107_j52450140619362_2_alg».proof.Proof.Gen.ReferenceIdeal.Read
import proofs.«117107_j52450140619362_2_alg».proof.Proof.FrameK
import proofs.«117107_j52450140619362_2_alg».proof.Proof.KernelValue
import proofs.«117107_j52450140619362_2_alg».proof.Proof.RefRows
import proofs.«117107_j52450140619362_2_alg».proof.Proof.Finite
import Idealize.ShloMosaic.Adequacy
import Idealize.ShloMosaic.Init

/-!
# A gated recurrent unit's step: the fused kernel against the textbook formulas

The kernel flattens the input and the state to 131072 rows, lays the weight matrices side by side, and in one region
over 128 blocks of 1024 rows computes `h + z ⊙ (h̃ − h)` with the update gate `z`, the reset gate and the candidate `h̃`
cut out of two fused matrix products. The reference computes `(1 − z) ⊙ h + z ⊙ h̃` from six separate products.

At the ideal values a change of float format is the identity, a product against matrices laid side by side has the
separate products as its column ranges, and `σ`, `tanh` take real values everywhere; so the two results agree entry by
entry as soon as the state's entries are real numbers — which the precondition says.

* the three frames: the two kernel programs' runs (one text, at the word level and at the ideal values), and the
  reference's run with its result forgotten;
* nothing was rewritten between the kernel and its idealization;
* the value claim: both runs end with the result at `newRows'`, reshaped to three axes.
-/

noncomputable section

namespace Cert.Proof

open Idealize.ShloMosaic Idealize.SL.Sem

theorem frame_k : Cert.frame_Kernel := fun m ρ _ => Cert.Kernel.HFrame.frame m ρ

theorem frame_ki : Cert.frame_KernelIdeal := fun m ρ _ => Cert.KernelIdeal.HFrame.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the new state of all rows: the kernel by its blocks, the reference by its
    formulas rewritten with `h + z (h̃ − h) = (1 − z) h + z h̃` on the real state the precondition gives. -/
theorem algebraic : Cert.algebraic_KernelIdeal_ReferenceIdeal := by
  intro m ρ m' ρ' hpre hagree
  refine ⟨fun c => shapeCast Cert.KernelIdeal.S1024x128x512 (Cert.KernelIdeal.KValue.newRows' m c)
      Cert.KernelIdeal.Gen.shapeCasts_S131072x512_S1024x128x512, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  refine (Cert.ReferenceIdeal.Read.val_main_v39_eq (F := Ideal) _ _ _ _ _ _ _ _ _ _ _).trans ?_
  rw [e0, e1, e2, e3, e4, e5, e6, e7, e8, e9, e10]
  unfold Cert.ReferenceIdeal.Read.val_main_v39
  rw [Cert.ReferenceIdeal.RefValue.ref_rows _ _ _ _ _ _ _ _ _ _ _
    (fun i => Cert.GruFinite.state_real _ _ _ _ _ _ _ _ _ _ _ (hpre c) i)]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
